-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x2x640x640 : Shape := ⟨4, ![32, 2, 640, 640]⟩
abbrev S_ : Shape := ⟨0, ![]⟩

class Facts : Prop where
  bcast_S_S32x2x640x640 : S_.BroadcastsInDim S32x2x640x640 (![] : Fin 0 → Fin S32x2x640x640.rank)
  reducesTo_S32x2x640x640_S_d0_1_2_3 : S32x2x640x640.ReducesTo [0, 1, 2, 3] S_
  h_S_ : 0 < S_.numel

variable [Facts]

def fn {F : FTy → Type} [FloatOps F] (main_arg0 : FVec F S32x2x640x640 .f32) (main_arg1 : FVec F S32x2x640x640 .f32) : IVec S_ 1 :=
  let main_v0 : FVec F S32x2x640x640 .f32 := Host.absf main_arg0
  let main_cst : FVec F S_ .f32 := constant S_ .f32 0x7F800000#32
  let main_v1 : FVec F S32x2x640x640 .f32 := broadcastInDim S32x2x640x640 ![] bcast_S_S32x2x640x640 main_cst
  let main_v2 : IVec S32x2x640x640 1 := cmpf .olt main_v0 main_v1
  let main_c : IVec S_ 1 := constantI S_ 1 1#1
  let main_v3 : IVec S_ 1 := (fun x v => Host.reduce IntOp.andi x v reducesTo_S32x2x640x640_S_d0_1_2_3 h_S_) main_v2 main_c
  let main_v4 : FVec F S32x2x640x640 .f32 := Host.absf main_arg1
  let main_cst_0 : FVec F S_ .f32 := constant S_ .f32 0x7F800000#32
  let main_v5 : FVec F S32x2x640x640 .f32 := broadcastInDim S32x2x640x640 ![] bcast_S_S32x2x640x640 main_cst_0
  let main_v6 : IVec S32x2x640x640 1 := cmpf .olt main_v4 main_v5
  let main_c_1 : IVec S_ 1 := constantI S_ 1 1#1
  let main_v7 : IVec S_ 1 := (fun x v => Host.reduce IntOp.andi x v reducesTo_S32x2x640x640_S_d0_1_2_3 h_S_) main_v6 main_c_1
  let main_v8 : IVec S_ 1 := andi main_v3 main_v7
  main_v8
-- ==== Kernel.lean ====
abbrev S32x2x640x640 : Shape := ⟨4, ![32, 2, 640, 640]⟩
abbrev S64x640x640 : Shape := ⟨3, ![64, 640, 640]⟩
abbrev S1x128 : Shape := ⟨2, ![1, 128]⟩
abbrev S8x128x640 : Shape := ⟨3, ![8, 128, 640]⟩
abbrev S1x640 : Shape := ⟨2, ![1, 640]⟩
abbrev S8x640 : Shape := ⟨2, ![8, 640]⟩
abbrev S8x1x640 : Shape := ⟨3, ![8, 1, 640]⟩
abbrev S1x1x640 : Shape := ⟨3, ![1, 1, 640]⟩
abbrev S1 : Shape := ⟨1, ![1]⟩
abbrev S1x1 : Shape := ⟨2, ![1, 1]⟩
abbrev S_ : Shape := ⟨0, ![]⟩

abbrev nBuf : Space → Nat
  | .hbm => 19
  | .vmem => 8
  | .smem => 0
  | _ => 0

abbrev bufTy : (tb : Table) → Fin (tcTables nBuf tb) → BufTy
  | .hbm, ⟨0, _⟩ => ⟨S32x2x640x640, .f32⟩
  | .hbm, ⟨1, _⟩ => ⟨S32x2x640x640, .f32⟩
  | .hbm, ⟨2, _⟩ => ⟨S64x640x640, .f32⟩
  | .hbm, ⟨3, _⟩ => ⟨S64x640x640, .f32⟩
  | .hbm, ⟨4, _⟩ => ⟨S1x128, .f32⟩
  | .hbm, ⟨5, _⟩ => ⟨S1x128, .f32⟩
  | .hbm, ⟨6, _⟩ => ⟨S1x1, .f32⟩
  | .hbm, ⟨7, _⟩ => ⟨S_, .f32⟩
  | .hbm, ⟨8, _⟩ => ⟨S1x1, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .local _ .vmem, ⟨0, _⟩ => ⟨S8x128x640, .f32⟩
  | .local _ .vmem, ⟨1, _⟩ => ⟨S8x128x640, .f32⟩
  | .local _ .vmem, ⟨2, _⟩ => ⟨S8x128x640, .f32⟩
  | .local _ .vmem, ⟨3, _⟩ => ⟨S8x128x640, .f32⟩
  | .local _ .vmem, ⟨4, _⟩ => ⟨S1x128, .f32⟩
  | .local _ .vmem, ⟨5, _⟩ => ⟨S1x128, .f32⟩
  | .local _ .vmem, ⟨6, _⟩ => ⟨S1x640, .f32⟩
  | .local _ .vmem, ⟨7, _⟩ => ⟨S1x640, .f32⟩
  | _, _ => ⟨S32x2x640x640, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5

abbrev nD : Nat := 1
abbrev τ : Topo := Topo.v7x

variable {F : FTy → Type} [FloatOps F]

abbrev grid0 : Pipeline.Grid := ⟨2, ![8, 5], ![false, false]⟩

def k0_cond2 (i : grid0.Coords) : BitVec 1 :=
  let arg0 : BitVec 32 := BitVec.ofNat 32 (i 0).val
  let c7_i32 : BitVec 32 := 7#32
  let v42 : BitVec 1 := Scalar.cmpi .eq arg0 c7_i32
  let arg1 : BitVec 32 := BitVec.ofNat 32 (i 1).val
  let c4_i32 : BitVec 32 := 4#32
  let v43 : BitVec 1 := Scalar.cmpi .eq arg1 c4_i32
  let v44 : BitVec 1 := Scalar.andi v42 v43
  let v45 : BitVec 32 := Scalar.extui v44
  let c0_i32_20 : BitVec 32 := 0#32
  let v46 : BitVec 1 := Scalar.cmpi .ne v45 c0_i32_20
  v46

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8x128x640 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x128x640 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

class Facts₀ : Prop where
  shapeCasts_S32x2x640x640_S64x640x640 : S32x2x640x640.ShapeCasts S64x640x640
  inb_S1x640_S1x640_0_0 : ∀ a, (![0, 0] : Fin 2 → Nat) a + S1x640.size a ≤ S1x640.size a
  h_S1x640 : 0 < S1x640.numel
  shapeCasts_S1x640_S1x640 : S1x640.ShapeCasts S1x640
  inb_S8x128x640_S8x128x640_0_0_0 : ∀ a, (![0, 0, 0] : Fin 3 → Nat) a + S8x128x640.size a ≤ S8x128x640.size a
  h_S8x128x640 : 0 < S8x128x640.numel
  shapeCasts_S8x128x640_S8x128x640 : S8x128x640.ShapeCasts S8x128x640
  iota_S8x128x640_d2_w32 : S8x128x640.Iotas .tc 32 [2]
  reduces_S8x128x640_S8x640 : S8x128x640.Reduces [1] S8x640
  shapeCasts_S8x640_S8x1x640 : S8x640.ShapeCasts S8x1x640
  reduces_S8x1x640_S1x640 : S8x1x640.Reduces [0] S1x640
  shapeCasts_S1x640_S1x1x640 : S1x640.ShapeCasts S1x1x640
  shapeCasts_S1x1x640_S1x640 : S1x1x640.ShapeCasts S1x640
  reduces_S1x640_S1 : S1x640.Reduces [1] S1
  shapeCasts_S1_S1x1 : S1.ShapeCasts S1x1
  shapeCasts_S1x1_S1x1 : S1x1.ShapeCasts S1x1
  broadcasts_S1x1_S1x128 : S1x1.Broadcasts S1x128
  inb_S1x128_S1x128_0_0 : ∀ a, (![0, 0] : Fin 2 → Nat) a + S1x128.size a ≤ S1x128.size a
  h_S1x128 : 0 < S1x128.numel
  slices_S1x128_S1x1_0_0 : S1x128.Slices ![0, 0] S1x1
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x128x640.size a ≤ S64x640x640.size a
  hwx0_0 : ∀ i : grid0.Coords, EltTy.bits .f32 = 32 ∨ (Rect.block (s := S64x640x640) S8x128x640.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x128x640.size a ≤ S64x640x640.size a
  hwx0_1 : ∀ i : grid0.Coords, EltTy.bits .f32 = 32 ∨ (Rect.block (s := S64x640x640) S8x128x640.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)

variable [Facts₀]

abbrev win0_0 : Pipeline.Window sig grid0 :=
  Pipeline.Window.ofSpec (Memref.whole main_v0) S8x128x640.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S8x128x640.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2_0) S1x128.size cc0_transform_2 reads0_2 true true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2_1) S1x128.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun i => !(k0_cond2 i == 1#1) | 3 => fun i => !(k0_cond2 i == 1#1) | ⟨_ + 4, h⟩ => absurd h (Nat.not_lt.2 (Nat.le_add_left _ _))

class Facts : Prop extends Facts₀ where

variable [Facts]
-- ==== ReferenceIdeal.lean ====
abbrev S32x2x640x640 : Shape := ⟨4, ![32, 2, 640, 640]⟩
abbrev S32x1x640x640 : Shape := ⟨4, ![32, 1, 640, 640]⟩
abbrev S32x640x640 : Shape := ⟨3, ![32, 640, 640]⟩
abbrev S32x640x160 : Shape := ⟨3, ![32, 640, 160]⟩
abbrev S32x640x240 : Shape := ⟨3, ![32, 640, 240]⟩
abbrev S32x640x480 : Shape := ⟨3, ![32, 640, 480]⟩
abbrev S_ : Shape := ⟨0, ![]⟩

abbrev nBuf : Space → Nat
  | .hbm => 55
  | .vmem => 0
  | .smem => 0
  | _ => 0

abbrev bufTy : (tb : Table) → Fin (tcTables nBuf tb) → BufTy
  | .hbm, ⟨0, _⟩ => ⟨S32x2x640x640, .f32⟩
  | .hbm, ⟨1, _⟩ => ⟨S32x2x640x640, .f32⟩
  | .hbm, ⟨2, _⟩ => ⟨S32x1x640x640, .f32⟩
  | .hbm, ⟨3, _⟩ => ⟨S32x640x640, .f32⟩
  | .hbm, ⟨4, _⟩ => ⟨S32x1x640x640, .f32⟩
  | .hbm, ⟨5, _⟩ => ⟨S32x640x640, .f32⟩
  | .hbm, ⟨6, _⟩ => ⟨S32x640x640, .f32⟩
  | .hbm, ⟨7, _⟩ => ⟨S32x640x160, .f32⟩
  | .hbm, ⟨8, _⟩ => ⟨S32x640x240, .f32⟩
  | .hbm, ⟨9, _⟩ => ⟨S32x640x240, .f32⟩
  | .hbm, ⟨10, _⟩ => ⟨S32x640x480, .f32⟩
  | .hbm, ⟨11, _⟩ => ⟨S32x640x160, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S32x640x480, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S32x1x640x640, .f32⟩
  | .hbm, ⟨27, _⟩ => ⟨S32x640x640, .f32⟩
  | .hbm, ⟨28, _⟩ => ⟨S32x1x640x640, .f32⟩
  | .hbm, ⟨29, _⟩ => ⟨S32x640x640, .f32⟩
  | .hbm, ⟨30, _⟩ => ⟨S32x640x640, .f32⟩
  | .hbm, ⟨31, _⟩ => ⟨S32x640x160, .f32⟩
  | .hbm, ⟨32, _⟩ => ⟨S32x640x240, .f32⟩
  | .hbm, ⟨33, _⟩ => ⟨S32x640x240, .f32⟩
  | .hbm, ⟨34, _⟩ => ⟨S32x640x480, .f32⟩
  | .hbm, ⟨35, _⟩ => ⟨S32x640x160, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S32x640x480, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | _, _ => ⟨S32x2x640x640, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_cst : Ref sig .tc := ⟨.hbm, 12, rfl⟩
abbrev main_v10 : Ref sig .tc := ⟨.hbm, 13, rfl⟩
abbrev main_cst_0 : Ref sig .tc := ⟨.hbm, 14, rfl⟩
abbrev main_v11 : Ref sig .tc := ⟨.hbm, 15, rfl⟩
abbrev main_v12 : Ref sig .tc := ⟨.hbm, 16, rfl⟩
abbrev main_cst_1 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_cst_3 : Ref sig .tc := ⟨.hbm, 21, rfl⟩
abbrev main_v15 : Ref sig .tc := ⟨.hbm, 22, rfl⟩
abbrev main_cst_4 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_cst_5 : Ref sig .tc := ⟨.hbm, 36, rfl⟩
abbrev main_v28 : Ref sig .tc := ⟨.hbm, 37, rfl⟩
abbrev main_cst_6 : Ref sig .tc := ⟨.hbm, 38, rfl⟩
abbrev main_v29 : Ref sig .tc := ⟨.hbm, 39, rfl⟩
abbrev main_v30 : Ref sig .tc := ⟨.hbm, 40, rfl⟩
abbrev main_cst_7 : Ref sig .tc := ⟨.hbm, 41, rfl⟩
abbrev main_v31 : Ref sig .tc := ⟨.hbm, 42, rfl⟩
abbrev main_cst_8 : Ref sig .tc := ⟨.hbm, 43, rfl⟩
abbrev main_v32 : Ref sig .tc := ⟨.hbm, 44, rfl⟩
abbrev main_cst_9 : Ref sig .tc := ⟨.hbm, 45, rfl⟩
abbrev main_v33 : Ref sig .tc := ⟨.hbm, 46, rfl⟩
abbrev main_cst_10 : Ref sig .tc := ⟨.hbm, 47, rfl⟩
abbrev main_v34 : Ref sig .tc := ⟨.hbm, 48, rfl⟩
abbrev main_v35 : Ref sig .tc := ⟨.hbm, 49, rfl⟩
abbrev main_cst_11 : Ref sig .tc := ⟨.hbm, 50, rfl⟩
abbrev main_v36 : Ref sig .tc := ⟨.hbm, 51, rfl⟩
abbrev main_cst_12 : Ref sig .tc := ⟨.hbm, 52, rfl⟩
abbrev main_v37 : Ref sig .tc := ⟨.hbm, 53, rfl⟩
abbrev main_v38 : Ref sig .tc := ⟨.hbm, 54, rfl⟩

abbrev nD : Nat := 1
abbrev τ : Topo := Topo.v7x

variable {F : FTy → Type} [FloatOps F]

class Facts₀ : Prop where
  slices_S32x2x640x640_S32x1x640x640_0_0_0_0 : S32x2x640x640.Slices ![0, 0, 0, 0] S32x1x640x640
  shapeCasts_S32x1x640x640_S32x640x640 : S32x1x640x640.ShapeCasts S32x640x640
  slices_S32x640x640_S32x640x160_0_0_240 : S32x640x640.Slices ![0, 0, 240] S32x640x160
  slices_S32x640x640_S32x640x240_0_0_0 : S32x640x640.Slices ![0, 0, 0] S32x640x240
  slices_S32x640x640_S32x640x240_0_0_400 : S32x640x640.Slices ![0, 0, 400] S32x640x240
  concatenates_S32x640x240_S32x640x240_S32x640x480_d2 : Shape.Concatenates [S32x640x240, S32x640x240] S32x640x480 2
  reducesTo_S32x640x160_S_d0_1_2 : S32x640x160.ReducesTo [0, 1, 2] S_
  h_S_ : 0 < S_.numel
  reducesTo_S32x640x480_S_d0_1_2 : S32x640x480.ReducesTo [0, 1, 2] S_
  slices_S32x2x640x640_S32x1x640x640_0_1_0_0 : S32x2x640x640.Slices ![0, 1, 0, 0] S32x1x640x640

variable [Facts₀]

class Facts : Prop extends Facts₀ where

variable [Facts]
-- ==== Proof.KernelPieces.lean ====
/-
  What each case of the kernel body leaves in the two running column totals and in the two outputs, read back
  as values: every store covers its whole buffer, so a buffer ends at the last payload stored into it, and every
  load reads a whole buffer, so a payload's arguments are the buffers' contents themselves.
-/
import proofs.«148331_j35373350650399_1_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.LossValue

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- At a middle point the central total becomes the old total plus this block's central column sums. -/
theorem sB0 (c : Dev nD) (i : grid0.Coords) (arg2 : Memref sig .tc .vmem S8x128x640 .f32) (harg2 : arg2.IsWhole) (arg3 : Memref sig .tc .vmem S8x128x640 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x640 .f32) (harg6 : arg6.IsWhole) (arg7 : Memref sig .tc .vmem S1x640 .f32) (harg7 : arg7.IsWhole) (hc0 : ¬cond0_0 i) (hc1 : ¬cond0_1 i)
    (x0 x1 : Vec F S8x128x640 .f32) (xs0 xs1 : Vec F S1x640 .f32) :
    sout0_B_0 c i arg2 harg2 arg3 harg3 arg4 harg4 arg5 harg5 arg6 harg6 arg7 harg7 hc0 hc1 x0 x1 xs0 xs1 = k0_pay1 (k0_pay10 x0 x1 xs0) := by
  unfold sout0_B_0
  rw [View.read_writes_eq_canon _ _ _ (scover0_B_0 c i arg2 harg2 arg3 harg3 arg4 harg4 arg5 harg5 arg6 harg6 arg7 harg7 hc0 hc1 x0 x1 xs0 xs1)]
  unfold kernelRun0_B
  dsimp only
  sl_unfold_words
  rw [View.canon_unit_zero hz2]
  simp only [View.readAt_eq_ld, harg2.read_unread, harg3.read_unread, harg6.read_unread, harg7.read_unread, View.ld_unit_zero (S := S8x128x640) hz3, View.ld_unit_zero (S := S1x640) hz2]

/-- At a middle point the periphery total becomes the old total plus this block's periphery column sums. -/
theorem sB1 (c : Dev nD) (i : grid0.Coords) (arg2 : Memref sig .tc .vmem S8x128x640 .f32) (harg2 : arg2.IsWhole) (arg3 : Memref sig .tc .vmem S8x128x640 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x640 .f32) (harg6 : arg6.IsWhole) (arg7 : Memref sig .tc .vmem S1x640 .f32) (harg7 : arg7.IsWhole) (hc0 : ¬cond0_0 i) (hc1 : ¬cond0_1 i)
    (x0 x1 : Vec F S8x128x640 .f32) (xs0 xs1 : Vec F S1x640 .f32) :
    sout0_B_1 c i arg2 harg2 arg3 harg3 arg4 harg4 arg5 harg5 arg6 harg6 arg7 harg7 hc0 hc1 x0 x1 xs0 xs1 = k0_pay2 (k0_pay9 x0 x1) xs1 := by
  unfold sout0_B_1
  rw [View.read_writes_eq_canon _ _ _ (scover0_B_1 c i arg2 harg2 arg3 harg3 arg4 harg4 arg5 harg5 arg6 harg6 arg7 harg7 hc0 hc1 x0 x1 xs0 xs1)]
  unfold kernelRun0_B
  dsimp only
  sl_unfold_words
  rw [View.canon_unit_zero hz2]
  simp only [View.readAt_eq_ld, harg2.read_unread, harg3.read_unread, harg6.read_unread, harg7.read_unread, View.ld_unit_zero (S := S8x128x640) hz3, View.ld_unit_zero (S := S1x640) hz2]

/-- The last point updates the central total the same way. -/
theorem sC0 (c : Dev nD) (i : grid0.Coords) (arg2 : Memref sig .tc .vmem S8x128x640 .f32) (harg2 : arg2.IsWhole) (arg3 : Memref sig .tc .vmem S8x128x640 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x640 .f32) (harg6 : arg6.IsWhole) (arg7 : Memref sig .tc .vmem S1x640 .f32) (harg7 : arg7.IsWhole) (hc0 : ¬cond0_0 i) (hc1 : cond0_1 i)
    (x0 x1 : Vec F S8x128x640 .f32) (xs0 xs1 : Vec F S1x640 .f32) :
    sout0_C_0 c i arg2 harg2 arg3 harg3 arg4 harg4 arg5 harg5 arg6 harg6 arg7 harg7 hc0 hc1 x0 x1 xs0 xs1 = k0_pay1 (k0_pay10 x0 x1 xs0) := by
  unfold sout0_C_0
  rw [View.read_writes_eq_canon _ _ _ (scover0_C_0 c i arg2 harg2 arg3 harg3 arg4 harg4 arg5 harg5 arg6 harg6 arg7 harg7 hc0 hc1 x0 x1 xs0 xs1)]
  unfold kernelRun0_C
  dsimp only
  sl_unfold_words
  rw [View.canon_unit_zero hz2]
  simp only [View.readAt_eq_ld, harg2.read_unread, harg3.read_unread, harg6.read_unread, harg7.read_unread, View.ld_unit_zero (S := S8x128x640) hz3, View.ld_unit_zero (S := S1x640) hz2]

/-- The last point updates the periphery total the same way. -/
theorem sC1 (c : Dev nD) (i : grid0.Coords) (arg2 : Memref sig .tc .vmem S8x128x640 .f32) (harg2 : arg2.IsWhole) (arg3 : Memref sig .tc .vmem S8x128x640 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x640 .f32) (harg6 : arg6.IsWhole) (arg7 : Memref sig .tc .vmem S1x640 .f32) (harg7 : arg7.IsWhole) (hc0 : ¬cond0_0 i) (hc1 : cond0_1 i)
    (x0 x1 : Vec F S8x128x640 .f32) (xs0 xs1 : Vec F S1x640 .f32) :
    sout0_C_1 c i arg2 harg2 arg3 harg3 arg4 harg4 arg5 harg5 arg6 harg6 arg7 harg7 hc0 hc1 x0 x1 xs0 xs1 = k0_pay2 (k0_pay9 x0 x1) xs1 := by
  unfold sout0_C_1
  rw [View.read_writes_eq_canon _ _ _ (scover0_C_1 c i arg2 harg2 arg3 harg3 arg4 harg4 arg5 harg5 arg6 harg6 arg7 harg7 hc0 hc1 x0 x1 xs0 xs1)]
  unfold kernelRun0_C
  dsimp only
  sl_unfold_words
  rw [View.canon_unit_zero hz2]
  simp only [View.readAt_eq_ld, harg2.read_unread, harg3.read_unread, harg6.read_unread, harg7.read_unread, View.ld_unit_zero (S := S8x128x640) hz3, View.ld_unit_zero (S := S1x640) hz2]

/-- At the first point both totals are zeroed first, so the central total is zero plus the block's central column sums. -/
theorem sA0 (c : Dev nD) (i : grid0.Coords) (arg2 : Memref sig .tc .vmem S8x128x640 .f32) (harg2 : arg2.IsWhole) (arg3 : Memref sig .tc .vmem S8x128x640 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x640 .f32) (harg6 : arg6.IsWhole) (arg7 : Memref sig .tc .vmem S1x640 .f32) (harg7 : arg7.IsWhole) (hc0 : cond0_0 i) (hc1 : ¬cond0_1 i)
    (x0 x1 : Vec F S8x128x640 .f32) :
    sout0_A_0 c i arg2 harg2 arg3 harg3 arg4 harg4 arg5 harg5 arg6 harg6 arg7 harg7 hc0 hc1 x0 x1 = k0_pay1 (k0_pay10 x0 x1 k0_pay5) := by
  unfold sout0_A_0
  rw [View.read_writes_eq_canon _ _ _ (scover0_A_0 c i arg2 harg2 arg3 harg3 arg4 harg4 arg5 harg5 arg6 harg6 arg7 harg7 hc0 hc1 x0 x1)]
  unfold kernelRun0_A
  dsimp only
  sl_unfold_words
  rw [View.canon_cons_unit_zero (S := S1x640) hz2, View.readCov_unit_zero (S := S1x640) _ hz2]
  simp only [View.readAt_eq_ld, harg2.read_unread, harg3.read_unread, harg6.read_unread, harg7.read_unread, View.ld_unit_zero (S := S8x128x640) hz3, View.ld_unit_zero (S := S1x640) hz2]

/-- Likewise the periphery total at the first point is zero plus the block's periphery column sums. -/
theorem sA1 (c : Dev nD) (i : grid0.Coords) (arg2 : Memref sig .tc .vmem S8x128x640 .f32) (harg2 : arg2.IsWhole) (arg3 : Memref sig .tc .vmem S8x128x640 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x640 .f32) (harg6 : arg6.IsWhole) (arg7 : Memref sig .tc .vmem S1x640 .f32) (harg7 : arg7.IsWhole) (hc0 : cond0_0 i) (hc1 : ¬cond0_1 i)
    (x0 x1 : Vec F S8x128x640 .f32) :
    sout0_A_1 c i arg2 harg2 arg3 harg3 arg4 harg4 arg5 harg5 arg6 harg6 arg7 harg7 hc0 hc1 x0 x1 = k0_pay2 (k0_pay9 x0 x1) k0_pay6 := by
  unfold sout0_A_1
  rw [View.read_writes_eq_canon _ _ _ (scover0_A_1 c i arg2 harg2 arg3 harg3 arg4 harg4 arg5 harg5 arg6 harg6 arg7 harg7 hc0 hc1 x0 x1)]
  unfold kernelRun0_A
  dsimp only
  sl_unfold_words
  rw [View.canon_cons_unit_zero (S := S1x640) hz2, View.readCov_unit_zero (S := S1x640) _ hz2]
  simp only [View.readAt_eq_ld, harg2.read_unread, harg3.read_unread, harg6.read_unread, harg7.read_unread, View.ld_unit_zero (S := S8x128x640) hz3, View.ld_unit_zero (S := S1x640) hz2]

/-- At the last point the first output is the lane sum of the updated central total, broadcast along its row. -/
theorem oC2 (c : Dev nD) (i : grid0.Coords) (arg2 : Memref sig .tc .vmem S8x128x640 .f32) (harg2 : arg2.IsWhole) (arg3 : Memref sig .tc .vmem S8x128x640 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x640 .f32) (harg6 : arg6.IsWhole) (arg7 : Memref sig .tc .vmem S1x640 .f32) (harg7 : arg7.IsWhole) (hc0 : ¬cond0_0 i) (hc1 : cond0_1 i)
    (x0 x1 : Vec F S8x128x640 .f32) (xs0 xs1 : Vec F S1x640 .f32) :
    out0_C_2 c i arg2 harg2 arg3 harg3 arg4 harg4 arg5 harg5 arg6 harg6 arg7 harg7 hc0 hc1 x0 x1 xs0 xs1 = k0_pay3 (k0_pay1 (k0_pay10 x0 x1 xs0)) := by
  unfold out0_C_2
  rw [View.read_writes_eq_canon _ _ _ (cover0_C_2 c i arg2 harg2 arg3 harg3 arg4 harg4 arg5 harg5 arg6 harg6 arg7 harg7 hc0 hc1 x0 x1 xs0 xs1)]
  unfold kernelRun0_C
  dsimp only
  sl_unfold_words
  rw [View.canon_unit_zero hz2, View.readCov_unit_zero (S := S1x640) _ hz2]
  simp only [View.readAt_eq_ld, harg2.read_unread, harg3.read_unread, harg6.read_unread, harg7.read_unread, View.ld_unit_zero (S := S8x128x640) hz3, View.ld_unit_zero (S := S1x640) hz2]

/-- And the second output is the lane sum of the updated periphery total, broadcast along its row. -/
theorem oC3 (c : Dev nD) (i : grid0.Coords) (arg2 : Memref sig .tc .vmem S8x128x640 .f32) (harg2 : arg2.IsWhole) (arg3 : Memref sig .tc .vmem S8x128x640 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x640 .f32) (harg6 : arg6.IsWhole) (arg7 : Memref sig .tc .vmem S1x640 .f32) (harg7 : arg7.IsWhole) (hc0 : ¬cond0_0 i) (hc1 : cond0_1 i)
    (x0 x1 : Vec F S8x128x640 .f32) (xs0 xs1 : Vec F S1x640 .f32) :
    out0_C_3 c i arg2 harg2 arg3 harg3 arg4 harg4 arg5 harg5 arg6 harg6 arg7 harg7 hc0 hc1 x0 x1 xs0 xs1 = k0_pay4 (k0_pay2 (k0_pay9 x0 x1) xs1) := by
  unfold out0_C_3
  rw [View.read_writes_eq_canon _ _ _ (cover0_C_3 c i arg2 harg2 arg3 harg3 arg4 harg4 arg5 harg5 arg6 harg6 arg7 harg7 hc0 hc1 x0 x1 xs0 xs1)]
  unfold kernelRun0_C
  dsimp only
  sl_unfold_words
  rw [View.canon_unit_zero hz2, View.readCov_unit_zero (S := S1x640) _ hz2]
  simp only [View.readAt_eq_ld, harg2.read_unread, harg3.read_unread, harg6.read_unread, harg7.read_unread, View.ld_unit_zero (S := S8x128x640) hz3, View.ld_unit_zero (S := S1x640) hz2]

end Cert.KernelIdeal.LossValue

end
-- ==== Proof.KernelSteps.lean ====
/-
  How the two running column totals and the two outputs move from tile to tile.

  At the first tile each total is the tile's column sums added to a row of zeros; at every later tile it is the
  tile's column sums added to what the tile before left; at the last tile each output is its total, summed over
  the columns. Which of the three a tile is depends only on its number among the 40.
-/
import proofs.«148331_j35373350650399_1_alg».proof.Proof.Gen.KernelIdeal.Frame
import Idealize.ShloMosaic.Lib.Pipeline.Value
import Idealize.ShloMosaic.Lib.Tactic
import proofs.«148331_j35373350650399_1_alg».proof.Proof.KernelPieces

set_option maxRecDepth 16384

noncomputable section

open Idealize.ShloMosaic Idealize.ShloMosaic.TcCoe Idealize.SL.Sem
open Idealize.ShloMosaic.Pipeline (Dat)

namespace Cert.KernelIdeal.LossValue

open Cert.KernelIdeal Cert.KernelIdeal.Gen

variable {F : FTy → Type} [FloatOps F]

variable (m : (ℓ : Loc nD τ sig) → Buf (Elt F) ℓ)

/-- The totals after the first tile. -/
theorem totals_first (c : Dev nD) (t : Fin cfg0.N) (h0 : t.val % 40 = 0) :
    (outsAt0 m c t.val t.isLt).2.2.1 = k0_pay1 (k0_pay10 (iblk m c 0 t) (iblk m c 1 t) k0_pay5)
    ∧ (outsAt0 m c t.val t.isLt).2.2.2 = k0_pay2 (k0_pay9 (iblk m c 0 t) (iblk m c 1 t)) k0_pay6 := by
  have h1 : ¬t.val % 40 = 39 := by omega
  rw [outsAt0_A m c t h0 h1]
  dsimp only
  exact ⟨sA0 c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (iblk m c 0 t) (iblk m c 1 t),
    sA1 c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (iblk m c 0 t) (iblk m c 1 t)⟩

/-- The totals after any later tile, from the totals after the tile before. -/
theorem totals_step (c : Dev nD) (t : Fin cfg0.N) (h0 : ¬t.val % 40 = 0) :
    (outsAt0 m c t.val t.isLt).2.2.1 = k0_pay1 (k0_pay10 (iblk m c 0 t) (iblk m c 1 t) (outsAt0 m c (t.val - 1) (Nat.lt_of_le_of_lt (Nat.sub_le _ _) t.isLt)).2.2.1)
    ∧ (outsAt0 m c t.val t.isLt).2.2.2 = k0_pay2 (k0_pay9 (iblk m c 0 t) (iblk m c 1 t)) (outsAt0 m c (t.val - 1) (Nat.lt_of_le_of_lt (Nat.sub_le _ _) t.isLt)).2.2.2 := by
  by_cases h1 : t.val % 40 = 39
  · rw [outsAt0_C m c t h0 h1]
    dsimp only
    exact ⟨sC0 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2,
      sC1 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2⟩
  · rw [outsAt0_B m c t h0 h1]
    dsimp only
    exact ⟨sB0 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2,
      sB1 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2⟩

/-- The two outputs after the last tile are the lane sums of the two totals after it. -/
theorem outs_last (c : Dev nD) (t : Fin cfg0.N) (h1 : t.val % 40 = 39) :
    (outsAt0 m c t.val t.isLt).1 = k0_pay3 (outsAt0 m c t.val t.isLt).2.2.1
    ∧ (outsAt0 m c t.val t.isLt).2.1 = k0_pay4 (outsAt0 m c t.val t.isLt).2.2.2 := by
  have h0 : ¬t.val % 40 = 0 := by omega
  rw [outsAt0_C m c t h0 h1]
  dsimp only
  exact ⟨(oC2 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2).trans
      (congrArg k0_pay3 (sC0 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2).symm),
    (oC3 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2).trans
      (congrArg k0_pay4 (sC1 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2).symm)⟩

end Cert.KernelIdeal.LossValue

end
-- ==== Proof.LibChunkSum.lean ====
/-
  A sum over `a * n` consecutive indices, cut into `a` chunks of `n`.

  In a commutative additive monoid the sum over `Fin (a * n)` is the sum over the chunks `c < a` of the sums over the
  positions `j < n` inside a chunk, position `j` of chunk `c` being index `n * c + j`. Only commutativity and
  associativity of addition are used, so the statement holds on the extended reals at the infinities too. The
  four-chunk corollary is the form a running total takes: start at zero, add the first chunk's sum, then the
  second's, the third's and the fourth's.
-/
import Mathlib.Algebra.BigOperators.Fin
import Mathlib.Logic.Equiv.Fin.Basic

namespace Cert.LibChunkSum

variable {M : Type*} [AddCommMonoid M]

/-- The sum over `Fin (a * n)` chunk by chunk: `col c j` is any spelling of index `n * c + j`. -/
theorem sum_chunks (a n : ℕ) (T : Fin (a * n) → M) (col : Fin a → Fin n → Fin (a * n))
    (hcol : ∀ c j, (col c j).val = n * c.val + j.val) :
    ∑ i, T i = ∑ c : Fin a, ∑ j : Fin n, T (col c j) := by
  rw [← Equiv.sum_comp finProdFinEquiv T, Fintype.sum_prod_type]
  refine Finset.sum_congr rfl fun c _ => Finset.sum_congr rfl fun j _ => congrArg T (Fin.ext ?_)
  rw [hcol]
  show j.val + n * c.val = n * c.val + j.val
  exact Nat.add_comm _ _

/-- A running total over four chunks, started at zero, is the whole sum. -/
theorem running_four (n : ℕ) (T : Fin (4 * n) → M) (col : Fin 4 → Fin n → Fin (4 * n))
    (hcol : ∀ c j, (col c j).val = n * c.val + j.val) :
    (((0 + ∑ j : Fin n, T (col 0 j)) + ∑ j : Fin n, T (col 1 j)) + ∑ j : Fin n, T (col 2 j)) + ∑ j : Fin n, T (col 3 j)
      = ∑ i, T i := by
  rw [sum_chunks 4 n T col hcol, Fin.sum_univ_four, zero_add]

end Cert.LibChunkSum
-- ==== Proof.LossSpec.lean ====
/-
  The loss both programs compute, on the extended reals, and the regroupings of finite sums that join them.

  The arguments are two arrays over (batch 32, channel 2, line 640, column 640). A column is CENTRAL when it lies
  in [240, 400). An element contributes the square of the difference of the two arrays on a central column and
  the absolute value of that difference on any other column. The loss of a channel is the central total over
  32·640·160 plus the other total over 32·640·480, and the loss is the sum over the two channels.

  One program adds the contributions channel by channel; the other runs over the 64 (batch, channel) rows in
  40 tiles of 8 rows by 128 lines, keeps a running total per column, sums the columns at the end and divides
  once. Sums regroup freely (addition on the extended reals is commutative and associative); dividing a sum of
  two NONNEGATIVE totals is dividing each, which is where the squares' and absolute values' signs are used.
-/
import Idealize.ShloMosaic.PureOps.Ideal
import Idealize.ShloMosaic.PureOps.Ideal.Laws
import Idealize.ShloMosaic.Lib.ValueIdx
import proofs.«148331_j35373350650399_1_alg».proof.Proof.LibChunkSum

noncomputable section

open scoped BigOperators

namespace Cert.LossSpec

open Idealize.ShloMosaic Idealize.ShloMosaic.ValueIdx Cert.LibChunkSum

/-! ## The three constants the programs spell -/

/-- The word for 32·640·160 denotes that real. -/
theorem ofBits_cenCount : Ideal.ofBits .f32 0x4A480000#32 = ((3276800 : ℝ) : EReal) := by
  simp [Ideal.ofBits, Ideal.ieee, -EReal.coe_mul] <;> norm_num

/-- The word for 32·640·480 denotes that real. -/
theorem ofBits_perCount : Ideal.ofBits .f32 0x4B160000#32 = ((9830400 : ℝ) : EReal) := by
  simp [Ideal.ofBits, Ideal.ieee, -EReal.coe_mul] <;> norm_num

/-- The word for 1.0 denotes one. -/
theorem ofBits_one : Ideal.ofBits .f32 0x3F800000#32 = 1 := by
  simp [Ideal.ofBits, Ideal.ieee, -EReal.coe_mul] <;> norm_num

/-! ## One element's contribution -/

/-- A column is central when it lies in [240, 400). -/
def central (w : ℕ) : Prop := 240 ≤ w ∧ w < 400

instance (w : ℕ) : Decidable (central w) := by unfold central; infer_instance

/-- The squared difference. -/
def sqd (a b : EReal) : EReal := (a - b) * (a - b)

/-- The absolute difference. -/
def absd (a b : EReal) : EReal := max (a - b) (-(a - b))

theorem sqd_nonneg (a b : EReal) : 0 ≤ sqd a b := by
  unfold sqd
  rcases le_total 0 (a - b) with h | h
  · exact EReal.mul_nonneg_iff.mpr (.inl ⟨h, h⟩)
  · exact EReal.mul_nonneg_iff.mpr (.inr ⟨h, h⟩)

theorem absd_nonneg (a b : EReal) : 0 ≤ absd a b := by
  unfold absd
  rcases le_total 0 (a - b) with h | h
  · exact le_max_of_le_left h
  · exact le_max_of_le_right (by rw [EReal.le_neg, neg_zero]; exact h)

/-- The central contribution at column w: the square on a central column, nothing elsewhere. -/
def cenVal (a b : EReal) (w : ℕ) : EReal := if central w then sqd a b else 0

/-- The other contribution at column w: nothing on a central column, the absolute difference elsewhere. -/
def perVal (a b : EReal) (w : ℕ) : EReal := if central w then 0 else absd a b

/-! ## Regrouping -/

section Regroup

variable {M : Type*} [AddCommMonoid M]

/-- A sum over a rank-3 index set is the triple sum over the coordinates. -/
theorem sum_idx3 {n0 n1 n2 : Nat} (f : (⟨3, ![n0, n1, n2]⟩ : Shape).Idx → M) :
    ∑ i, f i = ∑ a : Fin n0, ∑ b : Fin n1, ∑ c : Fin n2, f (ix3 a b c) := by
  let e : (⟨3, ![n0, n1, n2]⟩ : Shape).Idx ≃ Fin n0 × Fin n1 × Fin n2 :=
    { toFun := fun i => (i 0, i 1, i 2)
      invFun := fun p => ix3 p.1 p.2.1 p.2.2
      left_inv := fun i => (eq_ix3 i).symm
      right_inv := fun _ => rfl }
  rw [← Equiv.sum_comp e.symm f, Fintype.sum_prod_type]
  refine Finset.sum_congr rfl fun a _ => ?_
  rw [Fintype.sum_prod_type]
  rfl

/-- Row a of tile s. -/
def rowOf (s : Fin 40) (a : Fin 8) : Fin 64 := ⟨8 * (s.val / 5) + a.val, by have := s.isLt; have := a.isLt; omega⟩

/-- Line h of tile s. -/
def lineOf (s : Fin 40) (h : Fin 128) : Fin 640 := ⟨128 * (s.val % 5) + h.val, by have := s.isLt; have := h.isLt; omega⟩

/-- The 40 tiles of 8 rows by 128 lines cover the 64 rows by 640 lines once each. -/
theorem sum_tiles (G : Fin 64 → Fin 640 → M) :
    ∑ s : Fin 40, ∑ a : Fin 8, ∑ h : Fin 128, G (rowOf s a) (lineOf s h) = ∑ n : Fin 64, ∑ l : Fin 640, G n l := by
  rw [sum_chunks 8 8 (fun n : Fin 64 => ∑ l : Fin 640, G n l)
      (fun i a => ⟨8 * i.val + a.val, by have := i.isLt; have := a.isLt; omega⟩) (fun _ _ => rfl)]
  rw [sum_chunks 8 5 (fun s : Fin 40 => ∑ a : Fin 8, ∑ h : Fin 128, G (rowOf s a) (lineOf s h))
      (fun i j => ⟨5 * i.val + j.val, by have := i.isLt; have := j.isLt; omega⟩) (fun _ _ => rfl)]
  refine Finset.sum_congr rfl fun i _ => ?_
  rw [Finset.sum_comm]
  refine Finset.sum_congr rfl fun a _ => ?_
  rw [sum_chunks 5 128 (fun l : Fin 640 => G ⟨8 * i.val + a.val, by have := i.isLt; have := a.isLt; omega⟩ l)
      (fun j h => ⟨128 * j.val + h.val, by have := j.isLt; have := h.isLt; omega⟩) (fun _ _ => rfl)]
  refine Finset.sum_congr rfl fun j _ => Finset.sum_congr rfl fun h _ => ?_
  have hi := i.isLt; have hj := j.isLt
  congr 1
  · exact Fin.ext (by show 8 * ((5 * i.val + j.val) / 5) + a.val = 8 * i.val + a.val; omega)
  · exact Fin.ext (by show 128 * ((5 * i.val + j.val) % 5) + h.val = 128 * j.val + h.val; omega)

/-- Row 2b + ch of the 64 is channel ch of batch b. -/
def rowOfBatch (b : Fin 32) (ch : Fin 2) : Fin 64 := ⟨2 * b.val + ch.val, by have := b.isLt; have := ch.isLt; omega⟩

/-- The 64 rows are the 32 batches' first channels and the 32 batches' second channels. -/
theorem sum_rows_by_channel (F : Fin 64 → M) :
    ∑ n : Fin 64, F n = ∑ b : Fin 32, F (rowOfBatch b 0) + ∑ b : Fin 32, F (rowOfBatch b 1) := by
  rw [sum_chunks 32 2 F rowOfBatch (fun _ _ => rfl), ← Finset.sum_add_distrib]
  exact Finset.sum_congr rfl fun b _ => Fin.sum_univ_two _

/-- Central column w' of the 160. -/
def cenCol (w : Fin 160) : Fin 640 := ⟨240 + w.val, by have := w.isLt; omega⟩

/-- Other column w' of the 480: the 240 left of the centre, then the 240 right of it. -/
def perCol (w : Fin 480) : Fin 640 :=
  if h : w.val < 240 then ⟨w.val, by omega⟩ else ⟨w.val + 160, by have := w.isLt; omega⟩

/-- A sum over the 640 columns of something present on central columns only is the sum over the 160 central ones. -/
theorem sum_central (f : Fin 640 → M) :
    ∑ w : Fin 640, (if central w.val then f w else 0) = ∑ w : Fin 160, f (cenCol w) := by
  rw [Fin.sum_univ_add (a := 240) (b := 400) (fun w : Fin 640 => if central w.val then f w else 0)]
  rw [Fin.sum_univ_add (a := 160) (b := 240) (fun w : Fin 400 => if central (Fin.natAdd 240 w).val then f (Fin.natAdd 240 w) else 0)]
  rw [Finset.sum_eq_zero (fun i _ => if_neg (by have := i.isLt; show ¬(240 ≤ i.val ∧ i.val < 400); omega)), zero_add]
  rw [Finset.sum_eq_zero (s := Finset.univ (α := Fin 240)) (fun i _ => if_neg (by
      show ¬(240 ≤ 240 + (160 + i.val) ∧ 240 + (160 + i.val) < 400); omega)), add_zero]
  refine Finset.sum_congr rfl fun i _ => ?_
  rw [if_pos (by have := i.isLt; show 240 ≤ 240 + i.val ∧ 240 + i.val < 400; omega)]
  exact congrArg f (Fin.ext rfl)

/-- A sum over the 640 columns of something absent on central columns is the sum over the 480 others. -/
theorem sum_others (f : Fin 640 → M) :
    ∑ w : Fin 640, (if central w.val then 0 else f w) = ∑ w : Fin 480, f (perCol w) := by
  rw [Fin.sum_univ_add (a := 240) (b := 400) (fun w : Fin 640 => if central w.val then 0 else f w)]
  rw [Fin.sum_univ_add (a := 160) (b := 240) (fun w : Fin 400 => if central (Fin.natAdd 240 w).val then 0 else f (Fin.natAdd 240 w))]
  rw [Fin.sum_univ_add (a := 240) (b := 240) (fun w : Fin 480 => f (perCol w))]
  rw [Finset.sum_eq_zero (s := Finset.univ (α := Fin 160)) (fun i _ => if_pos (by
      have := i.isLt; show 240 ≤ 240 + i.val ∧ 240 + i.val < 400; omega)), zero_add]
  refine congrArg₂ (· + ·) ?_ ?_
  · refine Finset.sum_congr rfl fun i _ => ?_
    rw [if_neg (by have := i.isLt; show ¬(240 ≤ i.val ∧ i.val < 400); omega)]
    refine congrArg f (Fin.ext ?_)
    have hi := i.isLt
    show i.val = (perCol (Fin.castAdd 240 i)).val
    unfold perCol
    rw [dif_pos (by show i.val < 240; exact hi)]
    rfl
  · refine Finset.sum_congr rfl fun i _ => ?_
    rw [if_neg (by show ¬(240 ≤ 240 + (160 + i.val) ∧ 240 + (160 + i.val) < 400); omega)]
    refine congrArg f (Fin.ext ?_)
    show 240 + (160 + i.val) = (perCol (Fin.natAdd 240 i)).val
    unfold perCol
    rw [dif_neg (by show ¬(240 + i.val < 240); omega)]
    show 240 + (160 + i.val) = 240 + i.val + 160
    omega

end Regroup

/-! ## The loss -/

/-- The arrays' index set: (batch, channel, line, column). -/
abbrev Arr : Shape := ⟨4, ![32, 2, 640, 640]⟩

/-- Channel ch's central total: the squares over the 160 central columns of every line of every batch. -/
def cenTot (P T : Arr.Idx → EReal) (ch : Fin 2) : EReal :=
  ∑ b : Fin 32, ∑ l : Fin 640, ∑ w : Fin 160, sqd (P (ix4 b ch l (cenCol w))) (T (ix4 b ch l (cenCol w)))

/-- Channel ch's other total: the absolute differences over the 480 other columns. -/
def perTot (P T : Arr.Idx → EReal) (ch : Fin 2) : EReal :=
  ∑ b : Fin 32, ∑ l : Fin 640, ∑ w : Fin 480, absd (P (ix4 b ch l (perCol w))) (T (ix4 b ch l (perCol w)))

theorem cenTot_nonneg (P T : Arr.Idx → EReal) (ch : Fin 2) : 0 ≤ cenTot P T ch :=
  Finset.sum_nonneg fun _ _ => Finset.sum_nonneg fun _ _ => Finset.sum_nonneg fun _ _ => sqd_nonneg _ _

theorem perTot_nonneg (P T : Arr.Idx → EReal) (ch : Fin 2) : 0 ≤ perTot P T ch :=
  Finset.sum_nonneg fun _ _ => Finset.sum_nonneg fun _ _ => Finset.sum_nonneg fun _ _ => absd_nonneg _ _

/-- One channel's loss: its two means, each weighted by one. -/
def chanLoss (P T : Arr.Idx → EReal) (ch : Fin 2) : EReal :=
  Ideal.ofBits .f32 0x3F800000#32 * Ideal.div (Ideal.ofBits .f32 0x00000000#32 + cenTot P T ch) (Ideal.ofBits .f32 0x4A480000#32)
    + Ideal.ofBits .f32 0x3F800000#32 * Ideal.div (Ideal.ofBits .f32 0x00000000#32 + perTot P T ch) (Ideal.ofBits .f32 0x4B160000#32)

/-- The loss: the two channels' losses, each weighted by one. -/
def loss (P T : Arr.Idx → EReal) : EReal :=
  Ideal.ofBits .f32 0x3F800000#32 * chanLoss P T 0 + Ideal.ofBits .f32 0x3F800000#32 * chanLoss P T 1

/-- Dividing the two channels' summed totals once is the loss: division by a positive real distributes over a sum
    of nonnegative totals, and the weights are one. -/
theorem pooled_eq_loss (P T : Arr.Idx → EReal) :
    Ideal.ofBits .f32 0x3F800000#32 * Ideal.div (cenTot P T 0 + cenTot P T 1) (Ideal.ofBits .f32 0x4A480000#32)
      + Ideal.ofBits .f32 0x3F800000#32 * Ideal.div (perTot P T 0 + perTot P T 1) (Ideal.ofBits .f32 0x4B160000#32)
      = loss P T := by
  unfold loss chanLoss
  rw [ofBits_one, ofBits_cenCount, ofBits_perCount, Ideal.ofBits_zero_f32]
  rw [Ideal.div_coe (by norm_num : (3276800 : ℝ) ≠ 0), Ideal.div_coe (by norm_num : (9830400 : ℝ) ≠ 0),
    Ideal.div_coe (by norm_num : (3276800 : ℝ) ≠ 0), Ideal.div_coe (by norm_num : (9830400 : ℝ) ≠ 0),
    Ideal.div_coe (by norm_num : (3276800 : ℝ) ≠ 0), Ideal.div_coe (by norm_num : (9830400 : ℝ) ≠ 0)]
  simp only [one_mul, zero_add]
  rw [EReal.right_distrib_of_nonneg (cenTot_nonneg P T 0) (cenTot_nonneg P T 1),
    EReal.right_distrib_of_nonneg (perTot_nonneg P T 0) (perTot_nonneg P T 1)]
  exact add_add_add_comm _ _ _ _

end Cert.LossSpec

end
-- ==== Proof.KernelRead.lean ====
/-
  The kernel body's arithmetic read at an index, on the extended reals.

  One tile is 8 rows by 128 lines by 640 columns of each array. The body forms the difference of the two tiles,
  keeps its square on the central columns and its absolute value on the others (zero elsewhere in each), sums each
  over the lines and then over the rows, and adds the resulting 640 column sums to the two running totals. At the
  last tile it sums each running total over its 640 columns and writes that number along a row of 128.
-/
import proofs.«148331_j35373350650399_1_alg».proof.Proof.Gen.KernelIdeal.Frame
import Idealize.ShloMosaic.Lib.Pipeline.Value
import Idealize.ShloMosaic.Lib.Tactic
import Idealize.ShloMosaic.Lib.ValueIdx
import Idealize.ShloMosaic.PureOps.Ideal.Laws
import proofs.«148331_j35373350650399_1_alg».proof.Proof.LossSpec

set_option maxRecDepth 16384

noncomputable section

open Idealize.ShloMosaic Idealize.ShloMosaic.TcCoe Idealize.SL.Sem
open Idealize.ShloMosaic.Pipeline (Dat)

namespace Cert.KernelIdeal.LossRead

open Cert.KernelIdeal Cert.KernelIdeal.Gen

variable {F : FTy → Type} [FloatOps F]

open Idealize.ShloMosaic.ValueIdx Cert.LossSpec

/-! ## The payloads as "old total plus the tile's column sums", for any float instance -/

/-- A tile summed over its lines, then over its rows: 640 column sums, as a one-row array. -/
def colSums (v : FVec F S8x128x640 .f32) : FVec F S1x640 .f32 :=
  shapeCast S1x640 (shapeCast S1x1x640 (multiReduction .add [0] S1x640
    (shapeCast S8x1x640 (multiReduction .add [1] S8x640 v 0x00000000#32 reduces_S8x128x640_S8x640 (.inl rfl) rfl) shapeCasts_S8x640_S8x1x640)
    0x00000000#32 reduces_S8x1x640_S1x640 (.inl rfl) rfl) shapeCasts_S1x640_S1x1x640) shapeCasts_S1x1x640_S1x640

/-- The tile's squared differences kept on the central columns. -/
def cenTile (x0 x1 : Vec F S8x128x640 .f32) : FVec F S8x128x640 .f32 :=
  select k0_pay8 (mulf (k0_pay7 x0 x1) (k0_pay7 x0 x1)) (broadcast S8x128x640 (Scalar.ofBits .f32 0x00000000#32))

/-- The tile's absolute differences kept off the central columns. -/
def perTile (x0 x1 : Vec F S8x128x640 .f32) : FVec F S8x128x640 .f32 :=
  select k0_pay8 (broadcast S8x128x640 (Scalar.ofBits .f32 0x00000000#32)) (absf (k0_pay7 x0 x1))

/-- The new central total is the old one plus the tile's central column sums. -/
theorem cen_update (x0 x1 : Vec F S8x128x640 .f32) (acc : Vec F S1x640 .f32) :
    k0_pay1 (k0_pay10 x0 x1 acc) = addf acc (colSums (cenTile x0 x1)) := by
  unfold k0_pay1 k0_pay10
  exact shapeCast_self _ _

/-- The new other total is the old one plus the tile's other column sums. -/
theorem per_update (x0 x1 : Vec F S8x128x640 .f32) (acc : Vec F S1x640 .f32) :
    k0_pay2 (k0_pay9 x0 x1) acc = addf acc (colSums (perTile x0 x1)) := by
  unfold k0_pay2 k0_pay9
  exact shapeCast_self _ _

/-- The row of zeros a total is reset to. -/
theorem zero_row5 : (k0_pay5 : FVec F S1x640 .f32) = broadcast S1x640 (Scalar.ofBits .f32 0x00000000#32) := by
  unfold k0_pay5
  exact shapeCast_self _ _

theorem zero_row6 : (k0_pay6 : FVec F S1x640 .f32) = broadcast S1x640 (Scalar.ofBits .f32 0x00000000#32) := by
  unfold k0_pay6
  exact shapeCast_self _ _

/-! ## At the extended reals, index by index -/

/-- The column mask as a condition on the column number. -/
theorem mask_word : ∀ w : Fin 640,
    IntOp.andi (IntOp.cmpi .sge (BitVec.ofNat 32 w.val) 240#32) (IntOp.cmpi .slt (BitVec.ofNat 32 w.val) 400#32)
      = if 240 ≤ w.val ∧ w.val < 400 then 1#1 else 0#1 := by decide +kernel

/-- The mask at an element of the tile is one exactly on the central columns. -/
theorem mask_apply (a : Fin 8) (h : Fin 128) (w : Fin 640) :
    (k0_pay8 : IVec S8x128x640 1) (ix3 a h w) = if central w.val then 1#1 else 0#1 := by
  unfold k0_pay8
  show IntOp.andi (IntOp.cmpi .sge (iota .tc S8x128x640 32 [2] iota_S8x128x640_d2_w32 (ix3 a h w)) 240#32)
      (IntOp.cmpi .slt (iota .tc S8x128x640 32 [2] iota_S8x128x640_d2_w32 (ix3 a h w)) 400#32) = _
  rw [iota_single_apply]
  exact mask_word w

/-- Summing a tile over its lines, then over its rows, leaves at column w the double sum of the tile's column w. -/
theorem colSums_apply (v : FVec Ideal S8x128x640 .f32) (w : Fin 640) :
    colSums v (ix2 0 w) = ∑ a : Fin 8, ∑ h : Fin 128, v (ix3 a h w) := by
  unfold colSums
  rw [shapeCast_shapeCast]
  refine (Ideal.multiReduction_add_single _ 0x00000000#32 reduces_S8x1x640_S1x640 (.inl rfl) rfl (ix2 0 w)).trans ?_
  refine Finset.sum_congr rfl fun a _ => ?_
  refine (shapeCast_apply _ shapeCasts_S8x640_S8x1x640 _ (ix2 (n0 := 8) (n1 := 640) a w) ?_).trans ?_
  · rewrite [Shape.rowMajor_val_two, Shape.rowMajor_val_three]
    show a.val * 640 + w.val = (a.val * 1 + 0) * 640 + w.val
    omega
  refine (Ideal.multiReduction_add_single v 0x00000000#32 reduces_S8x128x640_S8x640 (.inl rfl) rfl (ix2 (n0 := 8) (n1 := 640) a w)).trans ?_
  refine Finset.sum_congr rfl fun h _ => congrArg v ?_
  funext d
  match d with
  | ⟨0, _⟩ => rfl
  | ⟨1, _⟩ => rfl
  | ⟨2, _⟩ => rfl

/-- The difference tile at an element. -/
theorem diff_apply (x0 x1 : Vec Ideal S8x128x640 .f32) (i : S8x128x640.Idx) :
    k0_pay7 x0 x1 i = x0 i - x1 i := by
  unfold k0_pay7
  rw [shapeCast_self, shapeCast_self]
  rfl

/-- The central tile at an element is that element's central contribution. -/
theorem cenTile_apply (x0 x1 : Vec Ideal S8x128x640 .f32) (a : Fin 8) (h : Fin 128) (w : Fin 640) :
    cenTile x0 x1 (ix3 a h w) = cenVal (x0 (ix3 a h w)) (x1 (ix3 a h w)) w.val := by
  show Scalar.select ((k0_pay8 : IVec S8x128x640 1) (ix3 a h w))
      (k0_pay7 x0 x1 (ix3 a h w) * k0_pay7 x0 x1 (ix3 a h w)) (Ideal.ofBits .f32 0x00000000#32) = _
  rw [mask_apply, diff_apply, Ideal.ofBits_zero_f32]
  unfold cenVal sqd
  by_cases hc : central w.val
  · rw [if_pos hc, if_pos hc]; exact select_one _ _
  · rw [if_neg hc, if_neg hc]; exact select_zero _ _

/-- The other tile at an element is that element's other contribution. -/
theorem perTile_apply (x0 x1 : Vec Ideal S8x128x640 .f32) (a : Fin 8) (h : Fin 128) (w : Fin 640) :
    perTile x0 x1 (ix3 a h w) = perVal (x0 (ix3 a h w)) (x1 (ix3 a h w)) w.val := by
  show Scalar.select ((k0_pay8 : IVec S8x128x640 1) (ix3 a h w))
      (Ideal.ofBits .f32 0x00000000#32) (max (k0_pay7 x0 x1 (ix3 a h w)) (-(k0_pay7 x0 x1 (ix3 a h w)))) = _
  rw [mask_apply, diff_apply, Ideal.ofBits_zero_f32]
  unfold perVal absd
  by_cases hc : central w.val
  · rw [if_pos hc, if_pos hc]; exact select_one _ _
  · rw [if_neg hc, if_neg hc]; exact select_zero _ _

/-- The central running total at column w grows by the tile's central contributions in that column. -/
theorem cen_step (x0 x1 : Vec Ideal S8x128x640 .f32) (acc : Vec Ideal S1x640 .f32) (w : Fin 640) :
    k0_pay1 (k0_pay10 x0 x1 acc) (ix2 0 w)
      = acc (ix2 0 w) + ∑ a : Fin 8, ∑ h : Fin 128, cenVal (x0 (ix3 a h w)) (x1 (ix3 a h w)) w.val := by
  rw [cen_update]
  show acc (ix2 0 w) + colSums (cenTile x0 x1) (ix2 0 w) = _
  rw [colSums_apply]
  exact congrArg (acc (ix2 0 w) + ·) (Finset.sum_congr rfl fun a _ => Finset.sum_congr rfl fun h _ => cenTile_apply x0 x1 a h w)

/-- The other running total at column w grows by the tile's other contributions in that column. -/
theorem per_step (x0 x1 : Vec Ideal S8x128x640 .f32) (acc : Vec Ideal S1x640 .f32) (w : Fin 640) :
    k0_pay2 (k0_pay9 x0 x1) acc (ix2 0 w)
      = acc (ix2 0 w) + ∑ a : Fin 8, ∑ h : Fin 128, perVal (x0 (ix3 a h w)) (x1 (ix3 a h w)) w.val := by
  rw [per_update]
  show acc (ix2 0 w) + colSums (perTile x0 x1) (ix2 0 w) = _
  rw [colSums_apply]
  exact congrArg (acc (ix2 0 w) + ·) (Finset.sum_congr rfl fun a _ => Finset.sum_congr rfl fun h _ => perTile_apply x0 x1 a h w)

/-- A reset total is zero in every column. -/
theorem zero5_apply (i : S1x640.Idx) : (k0_pay5 : FVec Ideal S1x640 .f32) i = 0 := by
  rw [zero_row5]; exact Ideal.ofBits_zero_f32

theorem zero6_apply (i : S1x640.Idx) : (k0_pay6 : FVec Ideal S1x640 .f32) i = 0 := by
  rw [zero_row6]; exact Ideal.ofBits_zero_f32

/-- A one-row array summed over its 640 columns and written along a row of 128 reads that sum everywhere. -/
theorem lane_total (v : FVec Ideal S1x640 .f32) (j : S1x128.Idx) :
    (broadcastTo S1x128 (shapeCast S1x1 (shapeCast S1x1 (multiReduction (F := Ideal) .add [1] S1 v 0x00000000#32 reduces_S1x640_S1 (.inl rfl) rfl)
        shapeCasts_S1_S1x1) shapeCasts_S1x1_S1x1) broadcasts_S1x1_S1x128 : FVec Ideal S1x128 .f32) j
      = ∑ w : Fin 640, v (ix2 0 w) := by
  refine (broadcastTo_apply _ broadcasts_S1x1_S1x128 j (ix2 (n0 := 1) (n1 := 1) 0 0) (fun a => by
    match a with
    | ⟨0, _⟩ => rfl
    | ⟨1, _⟩ => rfl)).trans ?_
  rw [shapeCast_self]
  refine (shapeCast_apply _ shapeCasts_S1_S1x1 _ (ix1 (n := 1) 0) (by
    rewrite [Shape.rowMajor_val_one, Shape.rowMajor_val_two]; rfl)).trans ?_
  refine (Ideal.multiReduction_add_single v 0x00000000#32 reduces_S1x640_S1 (.inl rfl) rfl (ix1 (n := 1) 0)).trans ?_
  refine Finset.sum_congr rfl fun w _ => congrArg v ?_
  funext d
  match d with
  | ⟨0, _⟩ => rfl
  | ⟨1, _⟩ => rfl

/-- The first output at the last tile: the central running total summed over its columns. -/
theorem out2_apply (v : Vec Ideal S1x640 .f32) (j : S1x128.Idx) : k0_pay3 v j = ∑ w : Fin 640, v (ix2 0 w) := by
  unfold k0_pay3; exact lane_total v j

/-- The second output at the last tile: the other running total summed over its columns. -/
theorem out3_apply (v : Vec Ideal S1x640 .f32) (j : S1x128.Idx) : k0_pay4 v j = ∑ w : Fin 640, v (ix2 0 w) := by
  unfold k0_pay4; exact lane_total v j

end Cert.KernelIdeal.LossRead

end
-- ==== Proof.KernelChain.lean ====
/-
  The running totals as sums over the tiles so far, on the extended reals.

  After tile n the central total at column w is the sum over the tiles 0 … n of the tile's central contributions
  in column w, and likewise the other total: by induction on the tile, the first tile adding to zero.
-/
import proofs.«148331_j35373350650399_1_alg».proof.Proof.Gen.KernelIdeal.Frame
import Idealize.ShloMosaic.Lib.Pipeline.Value
import Idealize.ShloMosaic.Lib.Tactic
import Idealize.ShloMosaic.Lib.ValueIdx
import proofs.«148331_j35373350650399_1_alg».proof.Proof.KernelSteps
import proofs.«148331_j35373350650399_1_alg».proof.Proof.KernelRead

set_option maxRecDepth 16384

noncomputable section

open Idealize.ShloMosaic Idealize.ShloMosaic.TcCoe Idealize.SL.Sem
open Idealize.ShloMosaic.Pipeline (Dat)

namespace Cert.KernelIdeal.LossChain

open Cert.KernelIdeal Cert.KernelIdeal.Gen

variable {F : FTy → Type} [FloatOps F]

open Idealize.ShloMosaic.ValueIdx Cert.LossSpec Cert.KernelIdeal.LossValue Cert.KernelIdeal.LossRead

variable (m : (ℓ : Loc nD τ sig) → Buf (Elt Ideal) ℓ)

/-- Tile s's central contributions in column w (nothing past the last tile). -/
def cenAdd (c : Dev nD) (s : ℕ) (w : Fin 640) : EReal :=
  if hs : s < cfg0.N then
    ∑ a : Fin 8, ∑ h : Fin 128,
      cenVal ((iblk m c 0 ⟨s, hs⟩ : Vec Ideal S8x128x640 .f32) (ix3 a h w)) ((iblk m c 1 ⟨s, hs⟩ : Vec Ideal S8x128x640 .f32) (ix3 a h w)) w.val
  else 0

/-- Tile s's other contributions in column w (nothing past the last tile). -/
def perAdd (c : Dev nD) (s : ℕ) (w : Fin 640) : EReal :=
  if hs : s < cfg0.N then
    ∑ a : Fin 8, ∑ h : Fin 128,
      perVal ((iblk m c 0 ⟨s, hs⟩ : Vec Ideal S8x128x640 .f32) (ix3 a h w)) ((iblk m c 1 ⟨s, hs⟩ : Vec Ideal S8x128x640 .f32) (ix3 a h w)) w.val
  else 0

/-- After tile n both totals at column w are the sums of the tiles' contributions so far. -/
theorem totals_eq (c : Dev nD) : ∀ (n : ℕ) (hn : n < cfg0.N) (w : Fin 640),
    (outsAt0 m c n hn).2.2.1 (ix2 0 w) = ∑ s ∈ Finset.range (n + 1), cenAdd m c s w
    ∧ (outsAt0 m c n hn).2.2.2 (ix2 0 w) = ∑ s ∈ Finset.range (n + 1), perAdd m c s w
  | 0, hn, w => by
    obtain ⟨e0, e1⟩ := totals_first m c ⟨0, hn⟩ rfl
    refine ⟨(congrFun e0 (ix2 0 w)).trans ((cen_step (iblk m c 0 ⟨0, hn⟩) (iblk m c 1 ⟨0, hn⟩) (k0_pay5 (F := Ideal)) w).trans ?_),
      (congrFun e1 (ix2 0 w)).trans ((per_step (iblk m c 0 ⟨0, hn⟩) (iblk m c 1 ⟨0, hn⟩) (k0_pay6 (F := Ideal)) w).trans ?_)⟩
    · rw [zero5_apply, zero_add, Finset.sum_range_one]; unfold cenAdd; rw [dif_pos hn]
    · rw [zero6_apply, zero_add, Finset.sum_range_one]; unfold perAdd; rw [dif_pos hn]
  | n + 1, hn, w => by
    have hN : cfg0.N = 40 := N_0
    obtain ⟨e0, e1⟩ := totals_step m c ⟨n + 1, hn⟩ (by show ¬(n + 1) % 40 = 0; omega)
    have ih := totals_eq c n (Nat.lt_of_succ_lt hn) w
    refine ⟨(congrFun e0 (ix2 0 w)).trans ((cen_step (iblk m c 0 ⟨n + 1, hn⟩) (iblk m c 1 ⟨n + 1, hn⟩) _ w).trans ?_),
      (congrFun e1 (ix2 0 w)).trans ((per_step (iblk m c 0 ⟨n + 1, hn⟩) (iblk m c 1 ⟨n + 1, hn⟩) _ w).trans ?_)⟩
    · rw [Finset.sum_range_succ _ (n + 1)]
      refine congrArg₂ (· + ·) ih.1 ?_
      unfold cenAdd; rw [dif_pos hn]
    · rw [Finset.sum_range_succ _ (n + 1)]
      refine congrArg₂ (· + ·) ih.2 ?_
      unfold perAdd; rw [dif_pos hn]

end Cert.KernelIdeal.LossChain

end
-- ==== Proof.KernelValue.lean ====
/-
  The kernel's run, read: what its result holds as a function of the two running totals after the last tile.

  Both outputs share one block at every tile and are written back once, after the last tile, so each result
  array of the call ends holding what the last tile's body left in its staging buffer. The lines of the program
  after the call take entry (0, 0) of each, divide by the two counts, weight by one and add.
-/
import proofs.«148331_j35373350650399_1_alg».proof.Proof.Gen.KernelIdeal.Frame
import Idealize.ShloMosaic.Lib.Pipeline.Value
import Idealize.ShloMosaic.Lib.Tactic
import Idealize.ShloMosaic.Lib.StableHlo.Run
import proofs.«148331_j35373350650399_1_alg».proof.Proof.KernelPieces

set_option maxRecDepth 16384

noncomputable section

open Idealize.ShloMosaic Idealize.ShloMosaic.TcCoe Idealize.SL.Sem
open Idealize.ShloMosaic.Pipeline (Dat)

namespace Cert.KernelIdeal.LossValue

open Cert.KernelIdeal Cert.KernelIdeal.Gen

variable {F : FTy → Type} [FloatOps F]

variable (m : (ℓ : Loc nD τ sig) → Buf (Elt F) ℓ) (ρ : Dev nD → PrngReg)

theorem lastLt : 39 < cfg0.N := by rw [show cfg0.N = 40 from N_0]; decide

/-- The last tile. -/
abbrev tLast : Fin cfg0.N := ⟨39, lastLt⟩

/-- What the first output's staging buffer holds after tile t. -/
def outAt2 (c : Dev nD) (t : Fin cfg0.N) : Buf (Elt F) ((c : Thread nD τ).loc main_v2_0) := (outsAt0 m c t.val t.isLt).1

/-- What the second output's staging buffer holds after tile t. -/
def outAt3 (c : Dev nD) (t : Fin cfg0.N) : Buf (Elt F) ((c : Thread nD τ).loc main_v2_1) := (outsAt0 m c t.val t.isLt).2.1

theorem outAt2_def (c : Dev nD) (t : Fin cfg0.N) : outAt2 m c t = (outsAt0 m c t.val t.isLt).1 := rfl
theorem outAt3_def (c : Dev nD) (t : Fin cfg0.N) : outAt3 m c t = (outsAt0 m c t.val t.isLt).2.1 := rfl

attribute [irreducible] outAt2 outAt3

/-- What the first output's staging buffer holds after the last tile. -/
def outC (c : Dev nD) : Buf (Elt F) ((c : Thread nD τ).loc main_v2_0) := outAt2 m c tLast

/-- What the second output's staging buffer holds after the last tile. -/
def outP (c : Dev nD) : Buf (Elt F) ((c : Thread nD τ).loc main_v2_1) := outAt3 m c tLast

/-- The one write-back of the first output writes it: its block is the whole array. -/
theorem flushed2_eq (c : Dev nD) (t : Fin cfg0.N) (hf : (cfg0.win 2).flush t = true) :
    (dats m 0 c).flushed 2 t = ((cfg0.win 2).blk t).view.read (Elt F) (outC m c) := by
  have hN : cfg0.N = 40 := N_0
  have h39 : t.val = 39 := by have := (flush0_2 t).mp hf; have := t.isLt; omega
  show (cfg0.win 2).cut (grid0.coords t) ((dats m 0 c).after 2 t) = _
  rw [after0_2, ← outAt2_def m c t]
  obtain rfl : t = tLast := Fin.ext h39
  show (cfg0.win 2).cut (grid0.coords tLast) (outC m c) = _
  generalize outC m c = X
  have hz' : (fun a => win0_2.index tLast a * main_v2_0.ty.shape.size a) = fun _ => 0 := funext fun a => by fin_cases a <;> decide
  exact (Memref.read_access_unit_zero (Elt F) main_v2_0 hz' (fun a => by rw [congrFun hz' a]; simp) X).symm

theorem flushed3_eq (c : Dev nD) (t : Fin cfg0.N) (hf : (cfg0.win 3).flush t = true) :
    (dats m 0 c).flushed 3 t = ((cfg0.win 3).blk t).view.read (Elt F) (outP m c) := by
  have hN : cfg0.N = 40 := N_0
  have h39 : t.val = 39 := by have := (flush0_3 t).mp hf; have := t.isLt; omega
  show (cfg0.win 3).cut (grid0.coords t) ((dats m 0 c).after 3 t) = _
  rw [after0_3, ← outAt3_def m c t]
  obtain rfl : t = tLast := Fin.ext h39
  show (cfg0.win 3).cut (grid0.coords tLast) (outP m c) = _
  generalize outP m c = X
  have hz' : (fun a => win0_3.index tLast a * main_v2_1.ty.shape.size a) = fun _ => 0 := funext fun a => by fin_cases a <;> decide
  exact (Memref.read_access_unit_zero (Elt F) main_v2_1 hz' (fun a => by rw [congrFun hz' a]; simp) X).symm

/-- So the first result array of the call ends holding it. -/
theorem final2 (c : Dev nD) : (dats m 0 c).arrAt 2 cfg0.N = outC m c :=
  (dats m 0 c).arrAt_eq_of_cover 2 (outC m c) (flushed2_eq m c) fun i =>
    ⟨tLast, (flush0_2 tLast).mpr rfl, by
      show i ∈ ((View.whole main_v2_0).slice (win0_2.rect tLast)).set
      rw [View.set_slice_whole, Rect.mem_set_unit]
      intro a
      have h0 : (i 0 : Nat) < 1 := (i 0).isLt
      have h1 : (i 1 : Nat) < 128 := (i 1).isLt
      match a with
      | ⟨0, _⟩ =>
        show win0_2.index tLast 0 * win0_2.size 0 ≤ (i 0 : Nat) ∧ (i 0 : Nat) < win0_2.index tLast 0 * win0_2.size 0 + win0_2.xsize (grid0.coords tLast) 0
        rw [show win0_2.index tLast 0 * win0_2.size 0 = 0 from by decide +kernel, show win0_2.xsize (grid0.coords tLast) 0 = 1 from by decide +kernel]; omega
      | ⟨1, _⟩ =>
        show win0_2.index tLast 1 * win0_2.size 1 ≤ (i 1 : Nat) ∧ (i 1 : Nat) < win0_2.index tLast 1 * win0_2.size 1 + win0_2.xsize (grid0.coords tLast) 1
        rw [show win0_2.index tLast 1 * win0_2.size 1 = 0 from by decide +kernel, show win0_2.xsize (grid0.coords tLast) 1 = 128 from by decide +kernel]; omega⟩

theorem final3 (c : Dev nD) : (dats m 0 c).arrAt 3 cfg0.N = outP m c :=
  (dats m 0 c).arrAt_eq_of_cover 3 (outP m c) (flushed3_eq m c) fun i =>
    ⟨tLast, (flush0_3 tLast).mpr rfl, by
      show i ∈ ((View.whole main_v2_1).slice (win0_3.rect tLast)).set
      rw [View.set_slice_whole, Rect.mem_set_unit]
      intro a
      have h0 : (i 0 : Nat) < 1 := (i 0).isLt
      have h1 : (i 1 : Nat) < 128 := (i 1).isLt
      match a with
      | ⟨0, _⟩ =>
        show win0_3.index tLast 0 * win0_3.size 0 ≤ (i 0 : Nat) ∧ (i 0 : Nat) < win0_3.index tLast 0 * win0_3.size 0 + win0_3.xsize (grid0.coords tLast) 0
        rw [show win0_3.index tLast 0 * win0_3.size 0 = 0 from by decide +kernel, show win0_3.xsize (grid0.coords tLast) 0 = 1 from by decide +kernel]; omega
      | ⟨1, _⟩ =>
        show win0_3.index tLast 1 * win0_3.size 1 ≤ (i 1 : Nat) ∧ (i 1 : Nat) < win0_3.index tLast 1 * win0_3.size 1 + win0_3.xsize (grid0.coords tLast) 1
        rw [show win0_3.index tLast 1 * win0_3.size 1 = 0 from by decide +kernel, show win0_3.xsize (grid0.coords tLast) 1 = 128 from by decide +kernel]; omega⟩

/-- The lines after the call, as one function of the call's two result arrays. -/
def tail (o2 o3 : FVec F S1x128 .f32) : FVec F S_ .f32 :=
  addf
    (mulf (constant (F := F) S_ .f32 0x3F800000#32)
      (Host.divf (shapeCast S_ (extractStridedSlice S1x1 ![0, 0] o2 slices_S1x128_S1x1_0_0) shapeCasts_S1x1_S_) (constant (F := F) S_ .f32 0x4A480000#32)))
    (mulf (constant (F := F) S_ .f32 0x3F800000#32)
      (Host.divf (shapeCast S_ (extractStridedSlice S1x1 ![0, 0] o3 slices_S1x128_S1x1_0_0) shapeCasts_S1x1_S_) (constant (F := F) S_ .f32 0x4B160000#32)))

/-- The program's result after the lines that follow the call. -/
theorem tail_eq (c : Dev nD) :
    Pipeline.afterTail₀ cfgs (dats m) 0 (V0 m) [hostOps1] c main_v11 = tail (F := F) (outC m c) (outP m c) := by
  unfold Pipeline.afterTail₀
  show StableHlo.after hostOps1 _ (Proc.devRef .tc main_v11) = _
  after_results
  have e2 : Pipeline.withArrays (cfgs 0).spec c (V0 m c) (fun w => (dats m 0 c).arrAt w (cfgs 0).N) (Proc.devRef .tc main_v2_0) = outC m c :=
    (Pipeline.withArrays_arr spec0 launch0.win.arr_inj c _ _ 2).trans (final2 m c)
  have e3 : Pipeline.withArrays (cfgs 0).spec c (V0 m c) (fun w => (dats m 0 c).arrAt w (cfgs 0).N) (Proc.devRef .tc main_v2_1) = outP m c :=
    (Pipeline.withArrays_arr spec0 launch0.win.arr_inj c _ _ 3).trans (final3 m c)
  rw [e2, e3]
  rfl

/-- The run, read: every execution ends with the program's result at the lines after the call applied to the two
    outputs, and with both arguments as they were. -/
theorem run : θ_run defs (onTc (τ := τ) (main (F := F))) ⟨m, fun _ => 0, ρ⟩ fun r => ∀ c : Dev nD,
      r.2.mem ((c.tc : Thread nD τ).loc main_v11) = tail (F := F) (outC m c) (outP m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v11 (Pipeline.mem_restRefs_of main_v11 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.LossValue

end
-- ==== Proof.LossRegroup.lean ====
/-
  The tiled, column-by-column sums regrouped into the two channels' sums.

  Over a 64 × 640 × 640 array pair, the sum over the columns of the sum over the 40 tiles of the tile's central
  contributions in that column is the sum over (batch, line, central column) of the squares, channel 0's plus
  channel 1's; and the same for the other columns with the absolute values. Only commutativity and associativity
  of addition are used.
-/
import proofs.«148331_j35373350650399_1_alg».proof.Proof.LossSpec

noncomputable section

open scoped BigOperators

namespace Cert.LossSpec

open Idealize.ShloMosaic Idealize.ShloMosaic.ValueIdx

/-- The arrays with batch and channel merged into 64 rows. -/
abbrev Rows : Shape := ⟨3, ![64, 640, 640]⟩

section

variable {M : Type*} [AddCommMonoid M]

/-- Columns outermost, tile by tile, is rows, lines, columns. -/
theorem sum_cols_tiles (F : Fin 64 → Fin 640 → Fin 640 → M) :
    ∑ w : Fin 640, ∑ s : Fin 40, ∑ a : Fin 8, ∑ h : Fin 128, F (rowOf s a) (lineOf s h) w
      = ∑ n : Fin 64, ∑ l : Fin 640, ∑ w : Fin 640, F n l w := by
  rw [← sum_tiles (fun n l => ∑ w : Fin 640, F n l w)]
  rw [Finset.sum_comm]
  refine Finset.sum_congr rfl fun s _ => ?_
  rw [Finset.sum_comm]
  refine Finset.sum_congr rfl fun a _ => ?_
  rw [Finset.sum_comm]

end

/-- The central contributions, tile by tile and column by column, are the two channels' sums of squares. -/
theorem tiled_central (X0 X1 : Rows.Idx → EReal) :
    ∑ w : Fin 640, ∑ s : Fin 40, ∑ a : Fin 8, ∑ h : Fin 128,
        cenVal (X0 (ix3 (rowOf s a) (lineOf s h) w)) (X1 (ix3 (rowOf s a) (lineOf s h) w)) w.val
      = (∑ b : Fin 32, ∑ l : Fin 640, ∑ w : Fin 160,
          sqd (X0 (ix3 (rowOfBatch b 0) l (cenCol w))) (X1 (ix3 (rowOfBatch b 0) l (cenCol w))))
        + ∑ b : Fin 32, ∑ l : Fin 640, ∑ w : Fin 160,
          sqd (X0 (ix3 (rowOfBatch b 1) l (cenCol w))) (X1 (ix3 (rowOfBatch b 1) l (cenCol w))) := by
  rw [sum_cols_tiles (fun n l w => cenVal (X0 (ix3 n l w)) (X1 (ix3 n l w)) w.val)]
  rw [sum_rows_by_channel]
  refine congrArg₂ (· + ·) ?_ ?_ <;>
    exact Finset.sum_congr rfl fun b _ => Finset.sum_congr rfl fun l _ =>
      sum_central (fun w => sqd (X0 (ix3 _ l w)) (X1 (ix3 _ l w)))

/-- The other contributions, tile by tile and column by column, are the two channels' sums of absolute values. -/
theorem tiled_others (X0 X1 : Rows.Idx → EReal) :
    ∑ w : Fin 640, ∑ s : Fin 40, ∑ a : Fin 8, ∑ h : Fin 128,
        perVal (X0 (ix3 (rowOf s a) (lineOf s h) w)) (X1 (ix3 (rowOf s a) (lineOf s h) w)) w.val
      = (∑ b : Fin 32, ∑ l : Fin 640, ∑ w : Fin 480,
          absd (X0 (ix3 (rowOfBatch b 0) l (perCol w))) (X1 (ix3 (rowOfBatch b 0) l (perCol w))))
        + ∑ b : Fin 32, ∑ l : Fin 640, ∑ w : Fin 480,
          absd (X0 (ix3 (rowOfBatch b 1) l (perCol w))) (X1 (ix3 (rowOfBatch b 1) l (perCol w))) := by
  rw [sum_cols_tiles (fun n l w => perVal (X0 (ix3 n l w)) (X1 (ix3 n l w)) w.val)]
  rw [sum_rows_by_channel]
  refine congrArg₂ (· + ·) ?_ ?_ <;>
    exact Finset.sum_congr rfl fun b _ => Finset.sum_congr rfl fun l _ =>
      sum_others (fun w => absd (X0 (ix3 _ l w)) (X1 (ix3 _ l w)))

end Cert.LossSpec

end
-- ==== Proof.KernelTotal.lean ====
/-
  The kernel's two outputs after the last tile, in terms of the two argument arrays, on the extended reals.

  Tile t holds rows 8·(t / 5) … + 7 and lines 128·(t % 5) … + 127 of the 64-row arrays the call is given, and row
  2·b + ch of those is channel ch of batch b of an argument. So the first output, the central total summed over the
  columns, is channel 0's sum of squares over the central columns plus channel 1's, and the second output the same
  for the absolute values over the other columns; the lines after the call then give the loss.
-/
import proofs.«148331_j35373350650399_1_alg».proof.Proof.Gen.KernelIdeal.Frame
import Idealize.ShloMosaic.Lib.Pipeline.Value
import Idealize.ShloMosaic.Lib.Tactic
import Idealize.ShloMosaic.Lib.ValueIdx
import Idealize.ShloMosaic.Lib.StableHlo.Run
import proofs.«148331_j35373350650399_1_alg».proof.Proof.KernelChain
import proofs.«148331_j35373350650399_1_alg».proof.Proof.KernelValue
import proofs.«148331_j35373350650399_1_alg».proof.Proof.LossRegroup

set_option maxRecDepth 16384

noncomputable section

open Idealize.ShloMosaic Idealize.ShloMosaic.TcCoe Idealize.SL.Sem
open Idealize.ShloMosaic.Pipeline (Dat)

namespace Cert.KernelIdeal.LossTotal

open Cert.KernelIdeal Cert.KernelIdeal.Gen

variable {F : FTy → Type} [FloatOps F]

open Idealize.ShloMosaic.ValueIdx Cert.LossSpec Cert.KernelIdeal.LossValue Cert.KernelIdeal.LossRead Cert.KernelIdeal.LossChain

variable (m : (ℓ : Loc nD τ sig) → Buf (Elt Ideal) ℓ)

/-! ## A tile's block inside the 64-row arrays -/

/-- Where tile t's block of the first operand starts: row block t / 5, line block t % 5, column block 0. -/
theorem idx_facts0 : ∀ t : Fin cfg0.N, win0_0.index t 0 = t.val / 5 ∧ win0_0.index t 1 = t.val % 5 ∧ win0_0.index t 2 = 0 :=
  (by decide +kernel : ∀ t : Fin grid0.N, win0_0.index t 0 = t.val / 5 ∧ win0_0.index t 1 = t.val % 5 ∧ win0_0.index t 2 = 0)

/-- The second operand's blocks start at the same places. -/
theorem idx_facts1 : ∀ t : Fin cfg0.N, win0_1.index t 0 = t.val / 5 ∧ win0_1.index t 1 = t.val % 5 ∧ win0_1.index t 2 = 0 :=
  (by decide +kernel : ∀ t : Fin grid0.N, win0_1.index t 0 = t.val / 5 ∧ win0_1.index t 1 = t.val % 5 ∧ win0_1.index t 2 = 0)

/-- A tile's number as one of the 40. -/
def tile (t : Fin cfg0.N) : Fin 40 := ⟨t.val, lt_of_lt_of_eq t.isLt (show cfg0.N = 40 from N_0)⟩

/-- The first 64-row array as the call finds it. -/
abbrev X0 (c : Dev nD) : Rows.Idx → EReal := V m c main_v0

/-- The second 64-row array as the call finds it. -/
abbrev X1 (c : Dev nD) : Rows.Idx → EReal := V m c main_v1

/-- Element (a, h, w) of tile t's first block is element (8·(t/5) + a, 128·(t%5) + h, w) of the first array. -/
theorem iblk0_apply (c : Dev nD) (t : Fin cfg0.N) (a : Fin 8) (h : Fin 128) (w : Fin 640) :
    (iblk m c 0 t : Vec Ideal S8x128x640 .f32) (ix3 a h w) = X0 m c (ix3 (rowOf (tile t) a) (lineOf (tile t) h) w) := by
  obtain ⟨h0, h1, h2⟩ := idx_facts0 t
  unfold iblk
  rw [View.read_apply]
  show V m c main_v0 _ = V m c main_v0 _
  refine congrArg (V m c main_v0) ?_
  funext d
  apply Fin.ext
  match d with
  | ⟨0, _⟩ => show win0_0.index t 0 * 8 + 1 * a.val = 8 * (t.val / 5) + a.val; rw [h0]; omega
  | ⟨1, _⟩ => show win0_0.index t 1 * 128 + 1 * h.val = 128 * (t.val % 5) + h.val; rw [h1]; omega
  | ⟨2, _⟩ => show win0_0.index t 2 * 640 + 1 * w.val = w.val; rw [h2]; omega

theorem iblk1_apply (c : Dev nD) (t : Fin cfg0.N) (a : Fin 8) (h : Fin 128) (w : Fin 640) :
    (iblk m c 1 t : Vec Ideal S8x128x640 .f32) (ix3 a h w) = X1 m c (ix3 (rowOf (tile t) a) (lineOf (tile t) h) w) := by
  obtain ⟨h0, h1, h2⟩ := idx_facts1 t
  unfold iblk
  rw [View.read_apply]
  show V m c main_v1 _ = V m c main_v1 _
  refine congrArg (V m c main_v1) ?_
  funext d
  apply Fin.ext
  match d with
  | ⟨0, _⟩ => show win0_1.index t 0 * 8 + 1 * a.val = 8 * (t.val / 5) + a.val; rw [h0]; omega
  | ⟨1, _⟩ => show win0_1.index t 1 * 128 + 1 * h.val = 128 * (t.val % 5) + h.val; rw [h1]; omega
  | ⟨2, _⟩ => show win0_1.index t 2 * 640 + 1 * w.val = w.val; rw [h2]; omega

/-! ## The 64-row arrays are the arguments with batch and channel merged -/

theorem rows0_eq (c : Dev nD) :
    X0 m c = shapeCast S64x640x640 (m ((c : Thread nD τ).loc main_arg0)) shapeCasts_S32x2x640x640_S64x640x640 := by
  show StableHlo.after hostOps0 (fun b => m (c, b)) (Proc.devRef .tc main_v0) = _
  after_results
  rfl

theorem rows1_eq (c : Dev nD) :
    X1 m c = shapeCast S64x640x640 (m ((c : Thread nD τ).loc main_arg1)) shapeCasts_S32x2x640x640_S64x640x640 := by
  show StableHlo.after hostOps0 (fun b => m (c, b)) (Proc.devRef .tc main_v1) = _
  after_results
  rfl

/-- Row 2·b + ch of the merged array is channel ch of batch b. -/
theorem merged_apply (P : S32x2x640x640.Idx → EReal) (b : Fin 32) (ch : Fin 2) (l w : Fin 640) :
    shapeCast S64x640x640 P shapeCasts_S32x2x640x640_S64x640x640 (ix3 (rowOfBatch b ch) l w) = P (ix4 b ch l w) :=
  shapeCast_apply P shapeCasts_S32x2x640x640_S64x640x640 (ix3 (rowOfBatch b ch) l w) (ix4 b ch l w) (by
    rewrite [Shape.rowMajor_val_four, Shape.rowMajor_val_three]
    show ((b.val * 2 + ch.val) * 640 + l.val) * 640 + w.val = ((2 * b.val + ch.val) * 640 + l.val) * 640 + w.val
    omega)

/-! ## The two totals over the whole grid -/

/-- The central total, summed over the columns, is the two channels' sums of squares. -/
theorem cen_total (c : Dev nD) :
    ∑ w : Fin 640, ∑ s ∈ Finset.range 40, cenAdd m c s w
      = cenTot (m ((c : Thread nD τ).loc main_arg0)) (m ((c : Thread nD τ).loc main_arg1)) 0
        + cenTot (m ((c : Thread nD τ).loc main_arg0)) (m ((c : Thread nD τ).loc main_arg1)) 1 := by
  have hN : cfg0.N = 40 := N_0
  have step : ∀ w : Fin 640, ∑ s ∈ Finset.range 40, cenAdd m c s w
      = ∑ s : Fin 40, ∑ a : Fin 8, ∑ h : Fin 128,
          cenVal (X0 m c (ix3 (rowOf s a) (lineOf s h) w)) (X1 m c (ix3 (rowOf s a) (lineOf s h) w)) w.val := fun w => by
    rw [Finset.sum_range]
    refine Finset.sum_congr rfl fun s _ => ?_
    unfold cenAdd
    rw [dif_pos (show s.val < cfg0.N by rw [hN]; exact s.isLt)]
    refine Finset.sum_congr rfl fun a _ => Finset.sum_congr rfl fun h _ => ?_
    rw [iblk0_apply, iblk1_apply]
    rfl
  rw [Finset.sum_congr rfl fun w _ => step w, tiled_central, rows0_eq, rows1_eq]
  unfold cenTot
  refine congrArg₂ (· + ·) ?_ ?_ <;>
    exact Finset.sum_congr rfl fun b _ => Finset.sum_congr rfl fun l _ => Finset.sum_congr rfl fun w _ => by
      rw [merged_apply, merged_apply]

/-- The other total, summed over the columns, is the two channels' sums of absolute values. -/
theorem per_total (c : Dev nD) :
    ∑ w : Fin 640, ∑ s ∈ Finset.range 40, perAdd m c s w
      = perTot (m ((c : Thread nD τ).loc main_arg0)) (m ((c : Thread nD τ).loc main_arg1)) 0
        + perTot (m ((c : Thread nD τ).loc main_arg0)) (m ((c : Thread nD τ).loc main_arg1)) 1 := by
  have hN : cfg0.N = 40 := N_0
  have step : ∀ w : Fin 640, ∑ s ∈ Finset.range 40, perAdd m c s w
      = ∑ s : Fin 40, ∑ a : Fin 8, ∑ h : Fin 128,
          perVal (X0 m c (ix3 (rowOf s a) (lineOf s h) w)) (X1 m c (ix3 (rowOf s a) (lineOf s h) w)) w.val := fun w => by
    rw [Finset.sum_range]
    refine Finset.sum_congr rfl fun s _ => ?_
    unfold perAdd
    rw [dif_pos (show s.val < cfg0.N by rw [hN]; exact s.isLt)]
    refine Finset.sum_congr rfl fun a _ => Finset.sum_congr rfl fun h _ => ?_
    rw [iblk0_apply, iblk1_apply]
    rfl
  rw [Finset.sum_congr rfl fun w _ => step w, tiled_others, rows0_eq, rows1_eq]
  unfold perTot
  refine congrArg₂ (· + ·) ?_ ?_ <;>
    exact Finset.sum_congr rfl fun b _ => Finset.sum_congr rfl fun l _ => Finset.sum_congr rfl fun w _ => by
      rw [merged_apply, merged_apply]

/-! ## The outputs and the result -/

/-- After a last tile t the first output reads, everywhere, the central totals so far summed over the columns. -/
theorem outAt2_apply (c : Dev nD) (t : Fin cfg0.N) (h1 : t.val % 40 = 39) (j : S1x128.Idx) :
    @Eq EReal (outAt2 m c t j) (∑ w : Fin 640, ∑ s ∈ Finset.range (t.val + 1), cenAdd m c s w) := by
  rw [outAt2_def, (outs_last m c t h1).1, out2_apply]
  exact Finset.sum_congr rfl fun w _ => (totals_eq m c t.val t.isLt w).1

theorem outAt3_apply (c : Dev nD) (t : Fin cfg0.N) (h1 : t.val % 40 = 39) (j : S1x128.Idx) :
    @Eq EReal (outAt3 m c t j) (∑ w : Fin 640, ∑ s ∈ Finset.range (t.val + 1), perAdd m c s w) := by
  rw [outAt3_def, (outs_last m c t h1).2, out3_apply]
  exact Finset.sum_congr rfl fun w _ => (totals_eq m c t.val t.isLt w).2

/-- The lines after the call, at the result's one index: entry (0, 0) of each output over its count, weighted by one, added. -/
theorem tail_apply (o2 o3 : FVec Ideal S1x128 .f32) (i : S_.Idx) :
    (tail (F := Ideal) o2 o3 i : EReal) = Ideal.ofBits .f32 0x3F800000#32 * Ideal.div (o2 (ix2 0 0)) (Ideal.ofBits .f32 0x4A480000#32)
      + Ideal.ofBits .f32 0x3F800000#32 * Ideal.div (o3 (ix2 0 0)) (Ideal.ofBits .f32 0x4B160000#32) := by
  have e : ∀ o : FVec Ideal S1x128 .f32,
      shapeCast S_ (extractStridedSlice S1x1 ![0, 0] o slices_S1x128_S1x1_0_0) shapeCasts_S1x1_S_ i = o (ix2 0 0) := fun o =>
    (shapeCast_apply _ shapeCasts_S1x1_S_ i (ix2 (n0 := 1) (n1 := 1) 0 0) (by
      rewrite [Shape.rowMajor_val_two]; rfl)).trans
    (extractStridedSlice_apply ![0, 0] o slices_S1x128_S1x1_0_0 (ix2 (n0 := 1) (n1 := 1) 0 0) (ix2 0 0) (fun a => by
      match a with
      | ⟨0, _⟩ => rfl
      | ⟨1, _⟩ => rfl))
  show Ideal.ofBits .f32 0x3F800000#32 * Ideal.div (shapeCast S_ (extractStridedSlice S1x1 ![0, 0] o2 slices_S1x128_S1x1_0_0) shapeCasts_S1x1_S_ i) (Ideal.ofBits .f32 0x4A480000#32)
      + Ideal.ofBits .f32 0x3F800000#32 * Ideal.div (shapeCast S_ (extractStridedSlice S1x1 ![0, 0] o3 slices_S1x128_S1x1_0_0) shapeCasts_S1x1_S_ i) (Ideal.ofBits .f32 0x4B160000#32) = _
  rw [e o2, e o3]

/-- The kernel program's result is the loss of its two arguments. -/
theorem result_eq_loss (c : Dev nD) (i : S_.Idx) :
    (tail (F := Ideal) (outC m c) (outP m c) i : EReal) = loss (m ((c : Thread nD τ).loc main_arg0)) (m ((c : Thread nD τ).loc main_arg1)) := by
  rw [tail_apply]
  unfold outC outP
  rw [outAt2_apply m c tLast rfl, outAt3_apply m c tLast rfl]
  show Ideal.ofBits .f32 0x3F800000#32 * Ideal.div (∑ w : Fin 640, ∑ s ∈ Finset.range 40, cenAdd m c s w) (Ideal.ofBits .f32 0x4A480000#32)
      + Ideal.ofBits .f32 0x3F800000#32 * Ideal.div (∑ w : Fin 640, ∑ s ∈ Finset.range 40, perAdd m c s w) (Ideal.ofBits .f32 0x4B160000#32) = _
  rw [cen_total, per_total]
  exact pooled_eq_loss _ _

end Cert.KernelIdeal.LossTotal

end
-- ==== Proof.RefLoss.lean ====
/-
  The reference program's result, read: it is the loss of the two arrays.

  For each channel the reference takes that channel's slice of both arrays, subtracts, cuts the central columns
  [240, 400) out for the squares and joins the columns left and right of them for the absolute values, sums each
  over everything, divides by the counts and adds; then it adds the two channels.
-/
import proofs.«148331_j35373350650399_1_alg».proof.Proof.Gen.ReferenceIdeal.Read
import proofs.«148331_j35373350650399_1_alg».proof.Proof.LossSpec
import Idealize.ShloMosaic.Lib.ValueIdx
import Idealize.ShloMosaic.Lib.Pipeline.Value
import Idealize.ShloMosaic.PureOps.Ideal.Laws

set_option maxRecDepth 16384

noncomputable section

open scoped BigOperators

namespace Cert.ReferenceIdeal.RefLoss

open Cert.ReferenceIdeal Cert.ReferenceIdeal.Gen Cert.ReferenceIdeal.Read Cert.LossSpec Idealize.ShloMosaic Idealize.ShloMosaic.ValueIdx

variable (P T : (⟨S32x2x640x640, .f32⟩ : BufTy).Contents (Elt Ideal))

/-! ## Channel 0 -/

/-- The difference array of channel 0 at (batch, line, column). -/
theorem diff0 (b : Fin 32) (l w : Fin 640) :
    val_main_v4 (F := Ideal) P T (ix3 b l w) = P (ix4 b 0 l w) - T (ix4 b 0 l w) := by
  have hb := b.isLt; have hl := l.isLt; have hw := w.isLt
  have e0 : idx_main_v0 (idx_main_v1 (ix3 b l w)) = ix4 b 0 l w := by
    funext a
    match a with
    | ⟨0, _⟩ => exact Fin.ext (by show ((b.val * 640 + l.val) * 640 + w.val) / 409600 = b.val; omega)
    | ⟨1, _⟩ => exact Fin.ext rfl
    | ⟨2, _⟩ => exact Fin.ext (by show ((b.val * 640 + l.val) * 640 + w.val) / 640 % 640 = l.val; omega)
    | ⟨3, _⟩ => exact Fin.ext (by show ((b.val * 640 + l.val) * 640 + w.val) % 640 = w.val; omega)
  have e1 : idx_main_v2 (idx_main_v3 (ix3 b l w)) = ix4 b 0 l w := by
    funext a
    match a with
    | ⟨0, _⟩ => exact Fin.ext (by show ((b.val * 640 + l.val) * 640 + w.val) / 409600 = b.val; omega)
    | ⟨1, _⟩ => exact Fin.ext rfl
    | ⟨2, _⟩ => exact Fin.ext (by show ((b.val * 640 + l.val) * 640 + w.val) / 640 % 640 = l.val; omega)
    | ⟨3, _⟩ => exact Fin.ext (by show ((b.val * 640 + l.val) * 640 + w.val) % 640 = w.val; omega)
  rw [val_main_v4_apply, val_main_v1_apply, val_main_v3_apply, val_main_v0_apply, val_main_v2_apply, e0, e1]
  rfl

/-- The joined left and right column ranges of channel 0: column w' of the 480 is column perCol w' of the 640. -/
theorem others0 (b : Fin 32) (l : Fin 640) (w : Fin 480) :
    val_main_v8 (F := Ideal) P T (ix3 b l w) = val_main_v4 (F := Ideal) P T (ix3 b l (perCol w)) := by
  unfold val_main_v8
  by_cases hw : w.val < 240
  · refine (concatenate_pair_apply_left _ _ _ concatenates_S32x640x240_S32x640x240_S32x640x480_d2 (ix3 b l w) rfl
      (ix3 b l (⟨w.val, hw⟩ : Fin 240)) (fun a => by
        match a with
        | ⟨0, _⟩ => rfl
        | ⟨1, _⟩ => rfl
        | ⟨2, _⟩ => rfl)).trans ?_
    rw [val_main_v6_apply]
    refine congrArg _ ?_
    funext a
    match a with
    | ⟨0, _⟩ => rfl
    | ⟨1, _⟩ => rfl
    | ⟨2, _⟩ => exact Fin.ext (by show w.val = (perCol w).val; unfold perCol; rw [dif_pos hw])
  · have hw' : w.val - 240 < 240 := by have := w.isLt; omega
    refine (concatenate_pair_apply_right _ _ _ concatenates_S32x640x240_S32x640x240_S32x640x480_d2 (ix3 b l w) rfl rfl
      (ix3 b l (⟨w.val - 240, hw'⟩ : Fin 240)) (fun a ha => by
        match a with
        | ⟨0, _⟩ => rfl
        | ⟨1, _⟩ => rfl
        | ⟨2, _⟩ => exact absurd rfl ha) (by show (w.val - 240) + 240 = w.val; omega)).trans ?_
    rw [val_main_v7_apply]
    refine congrArg _ ?_
    funext a
    match a with
    | ⟨0, _⟩ => rfl
    | ⟨1, _⟩ => rfl
    | ⟨2, _⟩ => exact Fin.ext (by
        show 400 + (w.val - 240) = (perCol w).val
        unfold perCol; rw [dif_neg hw]
        show 400 + (w.val - 240) = w.val + 160
        omega)

/-- Channel 0's sum of squares over the central columns. -/
theorem cen0 : val_main_v10 (F := Ideal) P T ix0 = Ideal.ofBits .f32 0x00000000#32 + cenTot P T 0 := by
  rw [val_main_v10_apply, sum_idx3]
  refine congrArg₂ (· + ·) rfl ?_
  unfold cenTot
  refine Finset.sum_congr rfl fun b _ => Finset.sum_congr rfl fun l _ => Finset.sum_congr rfl fun w _ => ?_
  have e : idx_main_v5 (ix3 b l w) = ix3 b l (cenCol w) := by
    funext a
    match a with
    | ⟨0, _⟩ => rfl
    | ⟨1, _⟩ => rfl
    | ⟨2, _⟩ => rfl
  rw [val_main_v9_apply, val_main_v5_apply, e, diff0]
  rfl

/-- Channel 0's sum of absolute values over the other columns. -/
theorem per0 : val_main_v13 (F := Ideal) P T ix0 = Ideal.ofBits .f32 0x00000000#32 + perTot P T 0 := by
  rw [val_main_v13_apply, sum_idx3]
  refine congrArg₂ (· + ·) rfl ?_
  unfold perTot
  refine Finset.sum_congr rfl fun b _ => Finset.sum_congr rfl fun l _ => Finset.sum_congr rfl fun w _ => ?_
  rw [val_main_v12_apply, others0, diff0]
  rfl

/-- Channel 0's loss. -/
theorem chan0 : val_main_v17 (F := Ideal) P T ix0 = chanLoss P T 0 := by
  rw [val_main_v17_apply, val_main_v15_apply, val_main_v16_apply, val_main_v11_apply, val_main_v14_apply, cen0, per0]
  rfl

/-! ## Channel 1 -/

/-- The difference array of channel 1 at (batch, line, column). -/
theorem diff1 (b : Fin 32) (l w : Fin 640) :
    val_main_v22 (F := Ideal) P T (ix3 b l w) = P (ix4 b 1 l w) - T (ix4 b 1 l w) := by
  have hb := b.isLt; have hl := l.isLt; have hw := w.isLt
  have e0 : idx_main_v18 (idx_main_v19 (ix3 b l w)) = ix4 b 1 l w := by
    funext a
    match a with
    | ⟨0, _⟩ => exact Fin.ext (by show ((b.val * 640 + l.val) * 640 + w.val) / 409600 = b.val; omega)
    | ⟨1, _⟩ => exact Fin.ext rfl
    | ⟨2, _⟩ => exact Fin.ext (by show ((b.val * 640 + l.val) * 640 + w.val) / 640 % 640 = l.val; omega)
    | ⟨3, _⟩ => exact Fin.ext (by show ((b.val * 640 + l.val) * 640 + w.val) % 640 = w.val; omega)
  have e1 : idx_main_v20 (idx_main_v21 (ix3 b l w)) = ix4 b 1 l w := by
    funext a
    match a with
    | ⟨0, _⟩ => exact Fin.ext (by show ((b.val * 640 + l.val) * 640 + w.val) / 409600 = b.val; omega)
    | ⟨1, _⟩ => exact Fin.ext rfl
    | ⟨2, _⟩ => exact Fin.ext (by show ((b.val * 640 + l.val) * 640 + w.val) / 640 % 640 = l.val; omega)
    | ⟨3, _⟩ => exact Fin.ext (by show ((b.val * 640 + l.val) * 640 + w.val) % 640 = w.val; omega)
  rw [val_main_v22_apply, val_main_v19_apply, val_main_v21_apply, val_main_v18_apply, val_main_v20_apply, e0, e1]
  rfl

/-- The joined left and right column ranges of channel 1: column w' of the 480 is column perCol w' of the 640. -/
theorem others1 (b : Fin 32) (l : Fin 640) (w : Fin 480) :
    val_main_v26 (F := Ideal) P T (ix3 b l w) = val_main_v22 (F := Ideal) P T (ix3 b l (perCol w)) := by
  unfold val_main_v26
  by_cases hw : w.val < 240
  · refine (concatenate_pair_apply_left _ _ _ concatenates_S32x640x240_S32x640x240_S32x640x480_d2 (ix3 b l w) rfl
      (ix3 b l (⟨w.val, hw⟩ : Fin 240)) (fun a => by
        match a with
        | ⟨0, _⟩ => rfl
        | ⟨1, _⟩ => rfl
        | ⟨2, _⟩ => rfl)).trans ?_
    rw [val_main_v24_apply]
    refine congrArg _ ?_
    funext a
    match a with
    | ⟨0, _⟩ => rfl
    | ⟨1, _⟩ => rfl
    | ⟨2, _⟩ => exact Fin.ext (by show w.val = (perCol w).val; unfold perCol; rw [dif_pos hw])
  · have hw' : w.val - 240 < 240 := by have := w.isLt; omega
    refine (concatenate_pair_apply_right _ _ _ concatenates_S32x640x240_S32x640x240_S32x640x480_d2 (ix3 b l w) rfl rfl
      (ix3 b l (⟨w.val - 240, hw'⟩ : Fin 240)) (fun a ha => by
        match a with
        | ⟨0, _⟩ => rfl
        | ⟨1, _⟩ => rfl
        | ⟨2, _⟩ => exact absurd rfl ha) (by show (w.val - 240) + 240 = w.val; omega)).trans ?_
    rw [val_main_v25_apply]
    refine congrArg _ ?_
    funext a
    match a with
    | ⟨0, _⟩ => rfl
    | ⟨1, _⟩ => rfl
    | ⟨2, _⟩ => exact Fin.ext (by
        show 400 + (w.val - 240) = (perCol w).val
        unfold perCol; rw [dif_neg hw]
        show 400 + (w.val - 240) = w.val + 160
        omega)

/-- Channel 1's sum of squares over the central columns. -/
theorem cen1 : val_main_v28 (F := Ideal) P T ix0 = Ideal.ofBits .f32 0x00000000#32 + cenTot P T 1 := by
  rw [val_main_v28_apply, sum_idx3]
  refine congrArg₂ (· + ·) rfl ?_
  unfold cenTot
  refine Finset.sum_congr rfl fun b _ => Finset.sum_congr rfl fun l _ => Finset.sum_congr rfl fun w _ => ?_
  have e : idx_main_v23 (ix3 b l w) = ix3 b l (cenCol w) := by
    funext a
    match a with
    | ⟨0, _⟩ => rfl
    | ⟨1, _⟩ => rfl
    | ⟨2, _⟩ => rfl
  rw [val_main_v27_apply, val_main_v23_apply, e, diff1]
  rfl

/-- Channel 1's sum of absolute values over the other columns. -/
theorem per1 : val_main_v31 (F := Ideal) P T ix0 = Ideal.ofBits .f32 0x00000000#32 + perTot P T 1 := by
  rw [val_main_v31_apply, sum_idx3]
  refine congrArg₂ (· + ·) rfl ?_
  unfold perTot
  refine Finset.sum_congr rfl fun b _ => Finset.sum_congr rfl fun l _ => Finset.sum_congr rfl fun w _ => ?_
  rw [val_main_v30_apply, others1, diff1]
  rfl

/-- Channel 1's loss. -/
theorem chan1 : val_main_v35 (F := Ideal) P T ix0 = chanLoss P T 1 := by
  rw [val_main_v35_apply, val_main_v33_apply, val_main_v34_apply, val_main_v29_apply, val_main_v32_apply, cen1, per1]
  rfl

/-! ## Both channels -/

/-- The reference's result is the loss. -/
theorem result_eq_loss : val_main_v38 (F := Ideal) P T ix0 = loss P T := by
  rw [val_main_v38_apply, val_main_v36_apply, val_main_v37_apply, chan0, chan1]
  rfl

end Cert.ReferenceIdeal.RefLoss

end
-- ==== Proof.lean ====
/-
  A row-wise loss of two arrays over (batch 32, channel 2, line 640, column 640), computed two ways.

  On the central columns [240, 400) an element contributes the square of the difference of the two arrays, on the
  other columns the absolute value of that difference. The reference forms, for each channel, the mean of the
  squares over 32·640·160 elements plus the mean of the absolute values over 32·640·480 elements, and adds the two
  channels. The kernel merges batch and channel into 64 rows, walks them in 40 tiles of 8 rows by 128 lines,
  keeps one running total per column for each kind of contribution, sums the columns after the last tile, and
  divides each grand total once.

  On the extended reals the two agree: the tiles cover every (row, line) once, a row is a (batch, channel) pair,
  the columns split into the central ones and the rest, and sums regroup freely; and since squares and absolute
  values are nonnegative, dividing the sum of the two channels' totals by a positive count is dividing each. The
  weights are one. Finiteness of the inputs is not needed for any of this.

  The kernel's frame is the generated one; what its result holds is read off that run (Proof/KernelValue.lean,
  Proof/KernelTotal.lean); the reference's run is the generated one, read stage by stage (Proof/RefLoss.lean);
  the common value and the regroupings are in Proof/LossSpec.lean and Proof/LossRegroup.lean.
-/
import proofs.«148331_j35373350650399_1_alg».proof.Defs
import proofs.«148331_j35373350650399_1_alg».proof.Proof.Gen.Kernel
import proofs.«148331_j35373350650399_1_alg».proof.Proof.Gen.Kernel.Frame
import proofs.«148331_j35373350650399_1_alg».proof.Proof.Gen.KernelIdeal
import proofs.«148331_j35373350650399_1_alg».proof.Proof.Gen.KernelIdeal.Frame
import proofs.«148331_j35373350650399_1_alg».proof.Proof.Gen.ReferenceIdeal
import proofs.«148331_j35373350650399_1_alg».proof.Proof.Gen.ReferenceIdeal.Run
import proofs.«148331_j35373350650399_1_alg».proof.Proof.Gen.ReferenceIdeal.Read
import proofs.«148331_j35373350650399_1_alg».proof.Proof.Gen.Pre_finite_inputs
import proofs.«148331_j35373350650399_1_alg».proof.Proof.KernelTotal
import proofs.«148331_j35373350650399_1_alg».proof.Proof.RefLoss
import Idealize.ShloMosaic.Lib.ValueIdx

noncomputable section

namespace Cert.Proof

open Idealize.ShloMosaic Idealize.SL.Sem

/-- The kernel as printed runs and leaves its arguments as they were. -/
theorem frame_k [Cert.Kernel.Facts] [Cert.Pre_finite_inputs.Facts] : Cert.frame_Kernel :=
  fun m ρ _ => Cert.Kernel.Gen.frame m ρ

/-- So does its reading on the extended reals. -/
theorem frame_ki [Cert.KernelIdeal.Facts] [Cert.Pre_finite_inputs.Facts] : Cert.frame_KernelIdeal :=
  fun m ρ _ => Cert.KernelIdeal.Gen.frame m ρ

/-- The reference runs and leaves its arguments as they were: its run, with the result forgotten. -/
theorem frame_ri [Cert.ReferenceIdeal.Facts] [Cert.Pre_finite_inputs.Facts] : Cert.frame_ReferenceIdeal :=
  fun m ρ _ => (θ_run Cert.ReferenceIdeal.defs _ _).mono (fun _ h c => (h c).2)
    (Cert.ReferenceIdeal.Value.run (F := Ideal) m ρ)

/-- Nothing was rewritten in passing to the extended reals. -/
theorem preserves : Cert.preserves_Kernel_KernelIdeal := trivial

/-- On the extended reals both programs end with the loss of the arguments they agree on. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => Cert.KernelIdeal.LossValue.tail (F := Ideal) (Cert.KernelIdeal.LossValue.outC m c) (Cert.KernelIdeal.LossValue.outP m c),
    Cert.KernelIdeal.LossValue.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v38_eq, (hagree c).1, (hagree c).2]
  funext i
  refine Eq.trans ?_ (Cert.KernelIdeal.LossTotal.result_eq_loss m c i).symm
  rw [ValueIdx.eq_ix0 i]
  exact Cert.ReferenceIdeal.RefLoss.result_eq_loss _ _

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
